-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x128 : Shape := ⟨3, ![4, 1, 128]⟩
abbrev S1x8192x3 : Shape := ⟨3, ![1, 8192, 3]⟩
abbrev S1x3x8192 : Shape := ⟨3, ![1, 3, 8192]⟩
abbrev S1x1x128 : Shape := ⟨3, ![1, 1, 128]⟩
abbrev S1x8192 : Shape := ⟨2, ![1, 8192]⟩
abbrev S1x1 : Shape := ⟨2, ![1, 1]⟩
abbrev S3x8192 : Shape := ⟨2, ![3, 8192]⟩
abbrev S1x256x3 : Shape := ⟨3, ![1, 256, 3]⟩
abbrev S256x3 : Shape := ⟨2, ![256, 3]⟩
abbrev S256x1 : Shape := ⟨2, ![256, 1]⟩
abbrev S3x2048 : Shape := ⟨2, ![3, 2048]⟩
abbrev S1x2048 : Shape := ⟨2, ![1, 2048]⟩
abbrev S256x2048 : Shape := ⟨2, ![256, 2048]⟩
abbrev S256 : Shape := ⟨1, ![256]⟩
abbrev S2048 : Shape := ⟨1, ![2048]⟩
abbrev S1 : Shape := ⟨1, ![1]⟩
abbrev S1x128 : Shape := ⟨2, ![1, 128]⟩
abbrev S4x1x1 : Shape := ⟨3, ![4, 1, 1]⟩
abbrev S4 : Shape := ⟨1, ![4]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x128, .f32⟩
  | .hbm, ⟨4, _⟩ => ⟨S4x1x1, .f32⟩
  | .hbm, ⟨5, _⟩ => ⟨S4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x8192x3, .f32⟩
  | .local _ .vmem, ⟨1, _⟩ => ⟨S1x8192x3, .f32⟩
  | .local _ .vmem, ⟨2, _⟩ => ⟨S1x3x8192, .f32⟩
  | .local _ .vmem, ⟨3, _⟩ => ⟨S1x3x8192, .f32⟩
  | .local _ .vmem, ⟨4, _⟩ => ⟨S1x1x128, .f32⟩
  | .local _ .vmem, ⟨5, _⟩ => ⟨S1x1x128, .f32⟩
  | .local _ .vmem, ⟨6, _⟩ => ⟨S1x8192, .f32⟩
  | .local _ .vmem, ⟨7, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v21 : BitVec 32 := Scalar.addi c0_i32 c32_i32
  let c1_i32 : BitVec 32 := 1#32
  ⟨c0_i32, v21, c1_i32⟩
def k0_mult1 (k0_t1 : Fin k0_t1_loop.trips) : BitVec 32 :=
  let c0_i32_19 : BitVec 32 := 0#32
  let c0_i32 : BitVec 32 := 0#32
  let c1_i32 : BitVec 32 := 1#32
  let arg6 : BitVec 32 := Scf.iv c0_i32 c1_i32 k0_t1
  let c1_i32_18 : BitVec 32 := 1#32
  let v36 : BitVec 32 := Scalar.muli arg6 c1_i32_18
  let v37 : BitVec 32 := Scalar.addi c0_i32_19 v36
  let c256_i32 : BitVec 32 := 256#32
  let v38 : BitVec 32 := Scalar.muli v37 c256_i32
  v38
def k0_off1 (k0_t1 : Fin k0_t1_loop.trips) : Fin 3 → Nat :=
  let c0_20 : Index := 0#32
  let c0_i32_19 : BitVec 32 := 0#32
  let c0_i32 : BitVec 32 := 0#32
  let c1_i32 : BitVec 32 := 1#32
  let arg6 : BitVec 32 := Scf.iv c0_i32 c1_i32 k0_t1
  let c1_i32_18 : BitVec 32 := 1#32
  let v36 : BitVec 32 := Scalar.muli arg6 c1_i32_18
  let v37 : BitVec 32 := Scalar.addi c0_i32_19 v36
  let c256_i32 : BitVec 32 := 256#32
  let v38 : BitVec 32 := Scalar.muli v37 c256_i32
  let v39 : BitVec 32 := v38
  let v40 : Index := Scalar.indexCast v39
  let c0_21 : Index := 0#32
  ![0, v40.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x8192x3_S4x3x8192_0_2_1 : S4x8192x3.Transposes [0, 2, 1] S4x3x8192
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  slices_S3x8192_o0_0_S1x8192 : S3x8192.Slices ![0, 0] S1x8192
  slices_S3x8192_o1_0_S1x8192 : S3x8192.Slices ![1, 0] S1x8192
  slices_S3x8192_o2_0_S1x8192 : S3x8192.Slices ![2, 0] S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S1x256x3 : 0 < S1x256x3.numel
  shapeCasts_S1x256x3_S256x3 : S1x256x3.ShapeCasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S3x8192_o0_0_S3x2048 : S3x8192.Slices ![0, 0] S3x2048
  slices_S1x8192_o0_0_S1x2048 : S1x8192.Slices ![0, 0] S1x2048
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  inb_S1x8192_S1x2048_0_0 : ∀ a, (![0, 0] : Fin 2 → Nat) a + S1x2048.size a ≤ S1x8192.size a
  h_S1x2048 : 0 < S1x2048.numel
  reduces_S256x2048_S2048 : S256x2048.Reduces [0] S2048
  shapeCasts_S2048_S1x2048 : S2048.ShapeCasts S1x2048
  shapeCasts_S1x2048_S1x2048 : S1x2048.ShapeCasts S1x2048
  slices_S3x8192_o0_2048_S3x2048 : S3x8192.Slices ![0, 2048] S3x2048
  slices_S1x8192_o0_2048_S1x2048 : S1x8192.Slices ![0, 2048] S1x2048
  inb_S1x8192_S1x2048_0_2048 : ∀ a, (![0, 2048] : Fin 2 → Nat) a + S1x2048.size a ≤ S1x8192.size a
  slices_S3x8192_o0_4096_S3x2048 : S3x8192.Slices ![0, 4096] S3x2048
  slices_S1x8192_o0_4096_S1x2048 : S1x8192.Slices ![0, 4096] S1x2048
  inb_S1x8192_S1x2048_0_4096 : ∀ a, (![0, 4096] : Fin 2 → Nat) a + S1x2048.size a ≤ S1x8192.size a
  slices_S3x8192_o0_6144_S3x2048 : S3x8192.Slices ![0, 6144] S3x2048
  slices_S1x8192_o0_6144_S1x2048 : S1x8192.Slices ![0, 6144] S1x2048
  inb_S1x8192_S1x2048_0_6144 : ∀ a, (![0, 6144] : Fin 2 → Nat) a + S1x2048.size a ≤ S1x8192.size a
  reduces_S256x1_S1 : S256x1.Reduces [0] S1
  shapeCasts_S1_S1x1 : S1.ShapeCasts S1x1
  reduces_S1x8192_S1 : S1x8192.Reduces [1] S1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  dot_S256x3_S3x2048_S256x2048_1_0_0_1_n_n_wf : DotDims.WF S256x3 S3x2048 S256x2048 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x3.size a ≤ S1x8192x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S4x8192x3.size a
  hwx0_0 : ∀ i : grid0.Coords, EltTy.bits .f32 = 32 ∨ (Rect.block (s := S4x8192x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S256x3_S3x2048_S256x2048_1_0_0_1_n_n : DotDims S256x3 S3x2048 S256x2048 where
  lhsContracting := [1]
  rhsContracting := [0]
  lhsNonContracting := [0]
  rhsNonContracting := [1]
  lhsBatch := []
  rhsBatch := []
  wf := dot_S256x3_S3x2048_S256x2048_1_0_0_1_n_n_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibMinAxis.lean ====
/-
  Minima over one axis of a matrix read at explicit coordinates, at the exact (extended-real) values.

  Row t of an [a, b] array reduced over its second axis collects the entries (t, s), s running over the b columns; column
  t reduced over the first axis collects the entries (s, t), s running over the a rows. A minimum taken from a starting
  value is the fold of min over those entries from that value; the starting pattern of a minimum, +infinity, is the top
  extended real.
-/
import proofs.«102500_j8117488190299_2_alg».proof.Proof.LibRows
import proofs.«102500_j8117488190299_2_alg».proof.Proof.LibCols

namespace Cert.LibMinAxis

open Idealize.ShloMosaic Idealize.ShloMosaic.ValueIdx

variable {φ : FTy}

/-- A minimum over ONE axis: the fold of min from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A row's minimum: the fold of min over the row's entries, from the accumulator's value. -/
theorem rowMin_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (t : Fin a) :
    multiReduction .minimumf [1] ⟨1, ![a]⟩ v acc h hφ hacc (ix1 t)
      = (Finset.univ : Finset (Fin b)).fold min (Ideal.ofBits φ acc) (fun s => v (ix2 t s)) := by
  rw [multiReduction_minimumf_single]
  have e : (v ∘ h.lift (ix1 t)) = fun s : Fin b => v (ix2 t s) := funext fun s => congrArg v (lift_last_ix2 h t s)
  rw [e]
  rfl

/-- A column's minimum: the fold of min over the column's entries, from the accumulator's value. -/
theorem colMin_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (t : Fin b) :
    multiReduction .minimumf [0] ⟨1, ![b]⟩ v acc h hφ hacc (ix1 t)
      = (Finset.univ : Finset (Fin a)).fold min (Ideal.ofBits φ acc) (fun s => v (ix2 s t)) := by
  rw [multiReduction_minimumf_single]
  have e : (v ∘ h.lift (ix1 t)) = fun s : Fin a => v (ix2 s t) := funext fun s => congrArg v (lift_first_ix2 h t s)
  rw [e]
  rfl

/-- The f32 pattern of +infinity is the top extended real. -/
theorem ofBits_inf_f32 : Ideal.ofBits .f32 0x7F800000#32 = ⊤ := by simp [Ideal.ofBits, Ideal.ieee]

end Cert.LibMinAxis
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibMinFold.lean ====
/-
  Least values over finite ranges, as folds of `min` from the top element of a linear order with top.

  A value is below such a fold exactly when it is below every entry; so two folds over the same entries, however
  the entries are grouped or ordered, are equal. Two groupings are used: a range of A·B entries cut into A
  consecutive stretches of B, the least value taken per stretch and then over the stretches; and the same
  stretches met one after the other by a running minimum that starts at the top element.
-/
import Mathlib.Data.Finset.Fold
import Mathlib.Order.Lattice
import Mathlib.Data.Fintype.Basic
import Mathlib.Tactic

namespace Cert.LibMinFold

variable {α : Type*} [LinearOrder α] [OrderTop α]

/-- A value is below the least entry of a finite family exactly when it is below every entry. -/
theorem le_foldMin_iff {ι : Type*} [Fintype ι] (f : ι → α) (z : α) :
    z ≤ (Finset.univ : Finset ι).fold min ⊤ f ↔ ∀ x, z ≤ f x := by
  rw [Finset.le_fold_min]
  exact ⟨fun h x => h.2 x (Finset.mem_univ x), fun h => ⟨le_top, fun x _ => h x⟩⟩

/-- Two finite families with the same lower bounds have the same least entry. -/
theorem foldMin_eq_of_forall {ι κ : Type*} [Fintype ι] [Fintype κ] (f : ι → α) (g : κ → α)
    (h : ∀ z, (∀ x, z ≤ f x) ↔ ∀ y, z ≤ g y) :
    (Finset.univ : Finset ι).fold min ⊤ f = (Finset.univ : Finset κ).fold min ⊤ g :=
  eq_of_forall_le_iff fun z => by rw [le_foldMin_iff, le_foldMin_iff]; exact h z

/-- Pointwise equal families have the same least entry. -/
theorem foldMin_congr {ι : Type*} [Fintype ι] (f g : ι → α) (h : ∀ x, f x = g x) :
    (Finset.univ : Finset ι).fold min ⊤ f = (Finset.univ : Finset ι).fold min ⊤ g := by
  rw [show f = g from funext h]

/-- A range of `N = A·B` entries cut into `A` stretches of `B`: entry `r` of stretch `t` is entry `B·t + r`. The least
    over the stretches of each stretch's least entry is the least entry of the range. -/
theorem foldMin_stretches {A B N : ℕ} (hN : N = A * B) (f : Fin N → α) (g : Fin A → Fin B → α)
    (hg : ∀ (t : Fin A) (r : Fin B) (h : B * t.val + r.val < N), g t r = f ⟨B * t.val + r.val, h⟩) :
    (Finset.univ : Finset (Fin A)).fold min ⊤ (fun t => (Finset.univ : Finset (Fin B)).fold min ⊤ (g t))
      = (Finset.univ : Finset (Fin N)).fold min ⊤ f := by
  refine eq_of_forall_le_iff fun z => ?_
  rw [le_foldMin_iff, le_foldMin_iff]
  constructor
  · intro h i
    have hi : i.val < A * B := hN ▸ i.isLt
    have hB : 0 < B := by
      rcases Nat.eq_zero_or_pos B with h0 | h0
      · rw [h0, Nat.mul_zero] at hi; omega
      · exact h0
    have ht : i.val / B < A := Nat.div_lt_of_lt_mul (by rw [Nat.mul_comm]; exact hi)
    have hr : i.val % B < B := Nat.mod_lt _ hB
    have e : B * (i.val / B) + i.val % B = i.val := Nat.div_add_mod _ _
    have h1 := (le_foldMin_iff (g ⟨i.val / B, ht⟩) z).mp (h ⟨i.val / B, ht⟩) ⟨i.val % B, hr⟩
    rw [hg ⟨i.val / B, ht⟩ ⟨i.val % B, hr⟩ (by show B * (i.val / B) + i.val % B < N; rw [e]; exact i.isLt)] at h1
    have e' : (⟨B * (i.val / B) + i.val % B, by rw [e]; exact i.isLt⟩ : Fin N) = i := Fin.ext e
    rwa [e'] at h1
  · intro h t
    rw [le_foldMin_iff]
    intro r
    have hlt : B * t.val + r.val < N := by
      have h1 : B * t.val + r.val < B * (t.val + 1) := by rw [Nat.mul_succ]; exact Nat.add_lt_add_left r.isLt _
      have h2 : B * (t.val + 1) ≤ B * A := Nat.mul_le_mul_left _ t.isLt
      rw [hN, Nat.mul_comm A B]; omega
    rw [hg t r hlt]
    exact h _

/-- The same stretches met one after the other: a running value starts at the top element and after stretch `k`
    is its minimum with that stretch's least entry. After all `A` stretches it is the least entry of the range. -/
theorem runningMin_stretches {A B N : ℕ} (hN : N = A * B) (f : Fin N → α) (g : Fin A → Fin B → α)
    (hg : ∀ (t : Fin A) (r : Fin B) (h : B * t.val + r.val < N), g t r = f ⟨B * t.val + r.val, h⟩)
    (a : ℕ → α) (h0 : a 0 = ⊤)
    (hs : ∀ (k : ℕ) (hk : k < A), a (k + 1) = min (a k) ((Finset.univ : Finset (Fin B)).fold min ⊤ (g ⟨k, hk⟩))) :
    a A = (Finset.univ : Finset (Fin N)).fold min ⊤ f := by
  have inv : ∀ k, k ≤ A → ∀ z, z ≤ a k ↔ ∀ t : Fin A, t.val < k → ∀ r, z ≤ g t r := by
    intro k
    induction k with
    | zero => intro _ z; rw [h0]; exact ⟨fun _ t ht => absurd ht (Nat.not_lt_zero _), fun _ => le_top⟩
    | succ k ih =>
      intro hk z
      have hk' : k < A := hk
      rw [hs k hk', le_min_iff, ih (Nat.le_of_lt hk') z, le_foldMin_iff]
      constructor
      · rintro ⟨h1, h2⟩ t ht r
        rcases Nat.lt_succ_iff_lt_or_eq.mp ht with h | h
        · exact h1 t h r
        · have : t = ⟨k, hk'⟩ := Fin.ext h
          rw [this]; exact h2 r
      · intro h
        exact ⟨fun t ht r => h t (Nat.lt_succ_of_lt ht) r, fun r => h ⟨k, hk'⟩ (Nat.lt_succ_self k) r⟩
  rw [← foldMin_stretches hN f g hg]
  refine eq_of_forall_le_iff fun z => ?_
  rw [inv A (Nat.le_refl A) z, le_foldMin_iff]
  exact ⟨fun h t => (le_foldMin_iff (g t) z).mpr (h t t.isLt), fun h t _ r => (le_foldMin_iff (g t) z).mp (h t) r⟩

end Cert.LibMinFold
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.ChamferSpec.lean ====
/-
  The Chamfer distance of two clouds of 8192 points in three dimensions, on the extended reals, and the two ways of
  collecting it that this certificate compares.

  With P and Q the two clouds, the squared distance of point m of P and point n of Q is taken in the expanded form
  |P m|² + |Q n|² − w · ⟨P m, Q n⟩ (w is the factor 2; nothing here depends on its value). For every point of P the least
  distance to a point of Q is summed, and for every point of Q the least distance to a point of P.

  One side takes each minimum over the whole other cloud at once. The other side walks over P in 32 stretches of 256
  points: within a stretch it meets Q in 4 stretches of 2048 points, keeping a running minimum per point of P that
  starts at the top element, and adds the 256 minima to a running sum; per point of Q it keeps a running minimum over
  the stretches of P, started at the top element. Since a value is below a minimum exactly when it is below every
  entry, and addition on the extended reals is associative and commutative, the two agree; no entry needs to be finite.
-/
import Idealize.ShloMosaic.PureOps.Ideal
import proofs.«102500_j8117488190299_2_alg».proof.Proof.LibMinFold
import proofs.«102500_j8117488190299_2_alg».proof.Proof.LibBlocks

noncomputable section

open Finset

namespace Cert.Chamfer

/-- Point `r` of the `k`-th stretch of 256 points. -/
def row (k : Fin 32) (r : Fin 256) : Fin 8192 :=
  ⟨256 * k.val + r.val, by have := k.isLt; have := r.isLt; omega⟩

/-- Point `q` of the `j`-th stretch of 2048 points. -/
def col (j : Fin 4) (q : Fin 2048) : Fin 8192 :=
  ⟨2048 * j.val + q.val, by have := j.isLt; have := q.isLt; omega⟩

/-! ## Running minima and running sums over the first stretches -/

/-- The running minimum of the first `k` of `A` values, from the top element. -/
def runMin {A : ℕ} (g : Fin A → EReal) : ℕ → EReal
  | 0 => ⊤
  | k + 1 => if h : k < A then min (runMin g k) (g ⟨k, h⟩) else runMin g k

theorem runMin_succ {A : ℕ} (g : Fin A → EReal) (k : Fin A) :
    runMin g (k.val + 1) = min (runMin g k.val) (g k) := by
  show (if h : k.val < A then min (runMin g k.val) (g ⟨k.val, h⟩) else runMin g k.val) = _
  rw [dif_pos k.isLt]

/-- A range of `A·B` entries met as `A` stretches of `B`: the running minimum of the stretches' least entries, after
    all stretches, is the least entry of the range. -/
theorem runMin_stretches {A B N : ℕ} (hN : N = A * B) (f : Fin N → EReal) (g : Fin A → Fin B → EReal)
    (hg : ∀ (t : Fin A) (r : Fin B) (h : B * t.val + r.val < N), g t r = f ⟨B * t.val + r.val, h⟩) :
    runMin (fun t => (univ : Finset (Fin B)).fold min ⊤ (g t)) A = (univ : Finset (Fin N)).fold min ⊤ f :=
  Cert.LibMinFold.runningMin_stretches hN f g hg (runMin fun t => (univ : Finset (Fin B)).fold min ⊤ (g t)) rfl
    (fun k hk => runMin_succ (fun t => (univ : Finset (Fin B)).fold min ⊤ (g t)) ⟨k, hk⟩)

/-- The running sum of the first `k` of `A` values, from `z`. -/
def runSum {A : ℕ} (z : EReal) (g : Fin A → EReal) : ℕ → EReal
  | 0 => z
  | k + 1 => if h : k < A then runSum z g k + g ⟨k, h⟩ else runSum z g k

theorem runSum_succ {A : ℕ} (z : EReal) (g : Fin A → EReal) (k : Fin A) :
    runSum z g (k.val + 1) = runSum z g k.val + g k := by
  show (if h : k.val < A then runSum z g k.val + g ⟨k.val, h⟩ else runSum z g k.val) = _
  rw [dif_pos k.isLt]

theorem runSum_range {A : ℕ} (z : EReal) (g : Fin A → EReal) :
    ∀ k, k ≤ A → runSum z g k = z + ∑ i ∈ range k, (if h : i < A then g ⟨i, h⟩ else 0)
  | 0, _ => by rw [sum_range_zero, add_zero]; rfl
  | k + 1, hk => by
    have hk' : k < A := hk
    rw [runSum_succ z g ⟨k, hk'⟩, runSum_range z g k (Nat.le_of_lt hk'), sum_range_succ, dif_pos hk', add_assoc]

/-- After all `A` values the running sum is `z` plus their sum. -/
theorem runSum_all {A : ℕ} (z : EReal) (g : Fin A → EReal) : runSum z g A = z + ∑ t, g t := by
  rw [runSum_range z g A (Nat.le_refl A), ← Fin.sum_univ_eq_sum_range (fun i => if h : i < A then g ⟨i, h⟩ else 0) A]
  refine congrArg (z + ·) (sum_congr rfl fun t _ => ?_)
  rw [dif_pos t.isLt]

/-! ## The distances and their least values -/

section
variable (w : EReal) (P Q : Fin 8192 → Fin 3 → EReal)

/-- The squared length of a point, its three squares added from the left. -/
def sq (x : Fin 3 → EReal) : EReal := x 0 * x 0 + x 1 * x 1 + x 2 * x 2

/-- The same with the squares collected by a sum started at zero. -/
theorem sq_eq_sum (x : Fin 3 → EReal) : (0 : EReal) + ∑ d : Fin 3, x d * x d = sq x := by
  rw [zero_add, Fin.sum_univ_three]; rfl

/-- The expanded squared distance of point `m` of `P` and point `n` of `Q`. -/
def dist (m n : Fin 8192) : EReal := sq (P m) + sq (Q n) - w * ∑ d : Fin 3, P m d * Q n d

/-- The least distance from point `m` of `P` to `Q`, and from point `n` of `Q` to `P`. -/
def rowMin (m : Fin 8192) : EReal := (univ : Finset (Fin 8192)).fold min ⊤ (fun n => dist w P Q m n)
def colMin (n : Fin 8192) : EReal := (univ : Finset (Fin 8192)).fold min ⊤ (fun m => dist w P Q m n)

/-- The least distance from point `m` of `P` to the `j`-th stretch of `Q`. -/
def chunkMin (m : Fin 8192) (j : Fin 4) : EReal :=
  (univ : Finset (Fin 2048)).fold min ⊤ (fun q => dist w P Q m (col j q))

/-- The running minimum over the four stretches of `Q`, from the top element. -/
def tileMin (m : Fin 8192) : EReal :=
  min (min (min (min ⊤ (chunkMin w P Q m 0)) (chunkMin w P Q m 1)) (chunkMin w P Q m 2)) (chunkMin w P Q m 3)

theorem tileMin_eq (m : Fin 8192) : tileMin w P Q m = rowMin w P Q m := by
  have h := runMin_stretches (A := 4) (B := 2048) (N := 8192) rfl (fun n => dist w P Q m n)
    (fun j q => dist w P Q m (col j q)) (fun _ _ _ => rfl)
  exact Eq.trans rfl h

/-- The least distance from the `k`-th stretch of `P` to point `n` of `Q`. -/
def colTile (k : Fin 32) (n : Fin 8192) : EReal :=
  (univ : Finset (Fin 256)).fold min ⊤ (fun r => dist w P Q (row k r) n)

/-- Per point of `Q`: the running minimum over the stretches of `P`. -/
def colState (k : ℕ) (n : Fin 8192) : EReal := runMin (fun t => colTile w P Q t n) k

/-- The running sum, from zero, over the stretches of `P` of each stretch's 256 minima. -/
def rowState (k : ℕ) : EReal := runSum 0 (fun t : Fin 32 => ∑ r : Fin 256, tileMin w P Q (row t r)) k

theorem colState_final (n : Fin 8192) : colState w P Q 32 n = colMin w P Q n :=
  runMin_stretches (A := 32) (B := 256) (N := 8192) rfl (fun m => dist w P Q m n)
    (fun t r => dist w P Q (row t r) n) (fun _ _ _ => rfl)

theorem rowState_final : rowState w P Q 32 = ∑ m, rowMin w P Q m := by
  unfold rowState
  rw [runSum_all, zero_add]
  have e : ∀ t : Fin 32, ∑ r : Fin 256, tileMin w P Q (row t r) = ∑ r : Fin 256, rowMin w P Q (row t r) :=
    fun t => sum_congr rfl fun r _ => tileMin_eq w P Q _
  rw [sum_congr rfl fun t _ => e t]
  have hs := Cert.LibBlocks.sum_entries (A := 32) (B := 256) (fun m : Fin (32 * 256) => rowMin w P Q m)
  refine (Eq.trans ?_ hs.symm)
  refine sum_congr rfl fun t _ => sum_congr rfl fun r _ => congrArg (rowMin w P Q) (Fin.ext ?_)
  show 256 * t.val + r.val = t.val * 256 + r.val
  rw [Nat.mul_comm]

/-- One batch's value: both sums scaled by `c` (the reciprocal of the number of points) and added. -/
def batch (c : EReal) : EReal := (∑ m, rowMin w P Q m) * c + (∑ n, colMin w P Q n) * c

end

end Cert.Chamfer

end
-- ==== Proof.ChamferTile.lean ====
/-
  The loop body's arithmetic read at explicit coordinates, at the exact (extended-real) values.

  One trip of the loop meets 256 points of the first cloud (a [1, 256, 3] stretch of its block) and all 8192 points of
  the second (its block transposed, [1, 3, 8192]), the latter in four stretches of 2048 columns. For each stretch it forms
  the [256, 2048] block of expanded squared distances |p|² + |q|² − 2·⟨p, q⟩, the inner product by a matrix product into a
  zero accumulator, and takes the least entry of each row and of each column. Here each of these values is read at a
  coordinate: a distance block's entry (r, q) is the distance of the stretch's point r and the second cloud's point
  2048·j + q; a row reduction is a fold of min over the 2048 columns, a column reduction a fold of min over the 256 rows.
-/
import proofs.«102500_j8117488190299_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«102500_j8117488190299_2_alg».proof.Proof.LibLayout
import proofs.«102500_j8117488190299_2_alg».proof.Proof.LibMinAxis
import proofs.«102500_j8117488190299_2_alg».proof.Proof.LibPlainDot
import proofs.«102500_j8117488190299_2_alg».proof.Proof.ChamferSpec

set_option maxRecDepth 16384

noncomputable section

namespace Cert.Chamfer.Tile

open Cert.KernelIdeal Cert.KernelIdeal.Gen Cert.KernelIdeal.Facts₀ Idealize.ShloMosaic Idealize.ShloMosaic.ValueIdx Finset

/-- The factor of the inner product: the f32 word of 2. -/
abbrev two : EReal := Ideal.ofBits .f32 0x40000000#32

/-- The expanded squared distance of point `r` of a stretch `tile` of the first cloud and point `n` of the second
    cloud's transposed block `v0`. -/
def dval (tile : Vec Ideal S1x256x3 .f32) (v0 : Vec Ideal S1x3x8192 .f32) (r : Fin 256) (n : Fin 8192) : EReal :=
  Cert.Chamfer.sq (fun d => tile (ix3 0 r d)) + Cert.Chamfer.sq (fun d => v0 (ix3 0 d n))
    - two * ∑ d : Fin 3, tile (ix3 0 r d) * v0 (ix3 0 d n)

/-! ## The pieces of a distance block -/

theorem pay2_apply (tile : Vec Ideal S1x256x3 .f32) (r : Fin 256) (d : Fin 3) :
    k0_pay2 (F := Ideal) tile (ix2 r d) = tile (ix3 0 r d) :=
  shapeCast_1ab_ab_apply tile _ r d

theorem pay17_apply (v0 : Vec Ideal S1x3x8192 .f32) (d : Fin 3) (n : Fin 8192) :
    k0_pay17 (F := Ideal) v0 (ix2 d n) = v0 (ix3 0 d n) :=
  shapeCast_1ab_ab_apply v0 _ d n

/-- Three squares of a row's entries, the columns cut one by one. -/
theorem sq_cols (A : FVec Ideal S256x3 .f32) (h0 : S256x3.Slices ![0, 0] S256x1) (h1 : S256x3.Slices ![0, 1] S256x1)
    (h2 : S256x3.Slices ![0, 2] S256x1) (r : Fin 256) :
    addf (addf (mulf (extractStridedSlice S256x1 ![0, 0] A h0) (extractStridedSlice S256x1 ![0, 0] A h0))
        (mulf (extractStridedSlice S256x1 ![0, 1] A h1) (extractStridedSlice S256x1 ![0, 1] A h1)))
      (mulf (extractStridedSlice S256x1 ![0, 2] A h2) (extractStridedSlice S256x1 ![0, 2] A h2)) (ix2 r (0 : Fin 1))
      = Cert.Chamfer.sq (fun d => A (ix2 r d)) := by
  rw [addf_apply, addf_apply, mulf_apply, mulf_apply, mulf_apply,
    slice2_axis1_apply 0 A h0 r (0 : Fin 1) (0 : Fin 3) rfl, slice2_axis1_apply 1 A h1 r (0 : Fin 1) (1 : Fin 3) rfl,
    slice2_axis1_apply 2 A h2 r (0 : Fin 1) (2 : Fin 3) rfl]
  rfl

/-- Three squares of a column's entries, the rows cut one by one. -/
theorem sq_rows (T : FVec Ideal S3x8192 .f32) (h0 : S3x8192.Slices ![0, 0] S1x8192) (h1 : S3x8192.Slices ![1, 0] S1x8192)
    (h2 : S3x8192.Slices ![2, 0] S1x8192) (n : Fin 8192) :
    addf (addf (mulf (extractStridedSlice S1x8192 ![0, 0] T h0) (extractStridedSlice S1x8192 ![0, 0] T h0))
        (mulf (extractStridedSlice S1x8192 ![1, 0] T h1) (extractStridedSlice S1x8192 ![1, 0] T h1)))
      (mulf (extractStridedSlice S1x8192 ![2, 0] T h2) (extractStridedSlice S1x8192 ![2, 0] T h2)) (ix2 (0 : Fin 1) n)
      = Cert.Chamfer.sq (fun d => T (ix2 d n)) := by
  rw [addf_apply, addf_apply, mulf_apply, mulf_apply, mulf_apply,
    slice2_axis0_apply 0 T h0 (0 : Fin 1) n (0 : Fin 3) rfl, slice2_axis0_apply 1 T h1 (0 : Fin 1) n (1 : Fin 3) rfl,
    slice2_axis0_apply 2 T h2 (0 : Fin 1) n (2 : Fin 3) rfl]
  rfl

theorem pay3_apply (tile : Vec Ideal S1x256x3 .f32) (r : Fin 256) :
    k0_pay3 (F := Ideal) tile (ix2 r (0 : Fin 1)) = Cert.Chamfer.sq (fun d => tile (ix3 0 r d)) := by
  unfold k0_pay3
  refine (sq_cols (k0_pay2 tile) _ _ _ r).trans ?_
  exact congrArg Cert.Chamfer.sq (funext fun d => pay2_apply tile r d)

theorem pay18_apply (v0 : Vec Ideal S1x3x8192 .f32) (n : Fin 8192) :
    k0_pay18 (F := Ideal) v0 (ix2 (0 : Fin 1) n) = Cert.Chamfer.sq (fun d => v0 (ix3 0 d n)) := by
  unfold k0_pay18
  refine (sq_rows (k0_pay17 v0) _ _ _ n).trans ?_
  exact congrArg Cert.Chamfer.sq (funext fun d => pay17_apply v0 d n)

/-- A distance block over abstract operands: squared lengths along the rows and the columns, less the factor times the
    matrix product. -/
theorem block_generic (w : EReal) (A : FVec Ideal S256x3 .f32) (ps : FVec Ideal S256x1 .f32) (T : FVec Ideal S3x2048 .f32)
    (qs : FVec Ideal S1x2048 .f32) (hb1 : S256x1.Broadcasts S256x2048) (hb2 : S1x2048.Broadcasts S256x2048)
    (r : Fin 256) (q : Fin 2048) :
    subf (addf (broadcastTo S256x2048 ps hb1) (broadcastTo S256x2048 qs hb2))
        (mulf (broadcast S256x2048 w)
          (matmul dot_S256x3_S3x2048_S256x2048_1_0_0_1_n_n (some .fp32) A T (constant S256x2048 .f32 0x00000000#32)))
      (ix2 r q)
      = ps (ix2 r (0 : Fin 1)) + qs (ix2 (0 : Fin 1) q) - w * ∑ d : Fin 3, A (ix2 r d) * T (ix2 d q) := by
  rw [subf_apply, addf_apply, mulf_apply, broadcast_apply, broadcastTo_a1_ab_apply, broadcastTo_1b_ab_apply]
  exact congrArg (fun z => ps (ix2 r (0 : Fin 1)) + qs (ix2 (0 : Fin 1) q) - w * z)
    (Cert.LibPlainDot.matmul_plain_apply dot_S256x3_S3x2048_S256x2048_1_0_0_1_n_n rfl rfl rfl rfl rfl rfl (some .fp32) A T r q)

/-- The distance block of the stretch of columns that starts at `off = 2048·j`. -/
theorem block_apply (off : ℕ) (j : Fin 4) (hoff : off = 2048 * j.val) (tile : Vec Ideal S1x256x3 .f32)
    (v0 : Vec Ideal S1x3x8192 .f32) (hT : S3x8192.Slices ![0, off] S3x2048) (hq : S1x8192.Slices ![0, off] S1x2048)
    (hb1 : S256x1.Broadcasts S256x2048) (hb2 : S1x2048.Broadcasts S256x2048) (r : Fin 256) (q : Fin 2048) :
    subf (addf (broadcastTo S256x2048 (k0_pay3 (F := Ideal) tile) hb1)
          (broadcastTo S256x2048 (extractStridedSlice S1x2048 ![0, off] (k0_pay18 (F := Ideal) v0) hq) hb2))
        (mulf (broadcast S256x2048 (Scalar.ofBits (F := Ideal) .f32 0x40000000#32))
          (matmul dot_S256x3_S3x2048_S256x2048_1_0_0_1_n_n (some .fp32) (k0_pay2 (F := Ideal) tile)
            (extractStridedSlice S3x2048 ![0, off] (k0_pay17 (F := Ideal) v0) hT) (constant S256x2048 .f32 0x00000000#32)))
      (ix2 r q)
      = dval tile v0 r (Cert.Chamfer.col j q) := by
  have hc : (Cert.Chamfer.col j q).val = off + q.val := by rw [hoff]; rfl
  refine (block_generic _ _ _ _ _ hb1 hb2 r q).trans ?_
  rw [pay3_apply, slice2_axis1_apply off (k0_pay18 v0) hq (0 : Fin 1) q (Cert.Chamfer.col j q) hc, pay18_apply]
  unfold dval
  refine congrArg (fun z => _ - two * z) (sum_congr rfl fun d _ => ?_)
  rw [pay2_apply, slice2_axis1_apply off (k0_pay17 v0) hT d q (Cert.Chamfer.col j q) hc, pay17_apply]

/-- The four distance blocks as the body spells them. -/
theorem block0_apply (tile : Vec Ideal S1x256x3 .f32) (v0 : Vec Ideal S1x3x8192 .f32) (r : Fin 256) (q : Fin 2048) :
    k0_pay4 (F := Ideal) (k0_pay17 v0) (k0_pay18 v0) tile (ix2 r q) = dval tile v0 r (Cert.Chamfer.col 0 q) := by
  unfold k0_pay4
  exact block_apply 0 0 rfl tile v0 _ _ _ _ r q

theorem block1_apply (tile : Vec Ideal S1x256x3 .f32) (v0 : Vec Ideal S1x3x8192 .f32) (r : Fin 256) (q : Fin 2048) :
    k0_pay10 (F := Ideal) (k0_pay7 (k0_pay17 v0) tile) (k0_pay8 tile) (k0_pay9 (k0_pay18 v0)) (ix2 r q)
      = dval tile v0 r (Cert.Chamfer.col 1 q) := by
  unfold k0_pay10 k0_pay7 k0_pay8 k0_pay9
  exact block_apply 2048 1 rfl tile v0 _ _ _ _ r q

theorem block2_apply (tile : Vec Ideal S1x256x3 .f32) (v0 : Vec Ideal S1x3x8192 .f32) (r : Fin 256) (q : Fin 2048) :
    k0_pay12 (F := Ideal) (k0_pay17 v0) (k0_pay18 v0) (k0_pay2 tile) (k0_pay3 tile) (ix2 r q)
      = dval tile v0 r (Cert.Chamfer.col 2 q) := by
  unfold k0_pay12
  exact block_apply 4096 2 rfl tile v0 _ _ _ _ r q

theorem block3_apply (tile : Vec Ideal S1x256x3 .f32) (v0 : Vec Ideal S1x3x8192 .f32) (r : Fin 256) (q : Fin 2048) :
    k0_pay21 (F := Ideal) (k0_pay15 (k0_pay18 v0) (k0_pay3 tile)) (k0_pay16 (k0_pay17 v0) (k0_pay2 tile)) (ix2 r q)
      = dval tile v0 r (Cert.Chamfer.col 3 q) := by
  unfold k0_pay21 k0_pay15 k0_pay16
  exact block_apply 6144 3 rfl tile v0 _ _ _ _ r q

/-! ## The reductions of a block -/

/-- A block's least entry per row, stood up as a column. -/
theorem rowPart_apply (D : FVec Ideal S256x2048 .f32) (h : S256x2048.Reduces [1] S256) (hc : S256.ShapeCasts S256x1)
    (r : Fin 256) :
    shapeCast S256x1 (multiReduction .minimumf [1] S256 D 0x7F800000#32 h (.inl rfl) rfl) hc (ix2 r (0 : Fin 1))
      = (univ : Finset (Fin 2048)).fold min ⊤ (fun q => D (ix2 r q)) := by
  rw [shapeCast_a_a1_apply]
  refine (Cert.LibMinAxis.rowMin_apply D 0x7F800000#32 h (.inl rfl) rfl r).trans ?_
  rw [Cert.LibMinAxis.ofBits_inf_f32]

/-- A block's least entry per column, laid as a row. -/
theorem colPart_apply (D : FVec Ideal S256x2048 .f32) (h : S256x2048.Reduces [0] S2048) (hc : S2048.ShapeCasts S1x2048)
    (q : Fin 2048) :
    shapeCast S1x2048 (multiReduction .minimumf [0] S2048 D 0x7F800000#32 h (.inl rfl) rfl) hc (ix2 (0 : Fin 1) q)
      = (univ : Finset (Fin 256)).fold min ⊤ (fun r => D (ix2 r q)) := by
  rw [shapeCast_a_1a_apply]
  refine (Cert.LibMinAxis.colMin_apply D 0x7F800000#32 h (.inl rfl) rfl q).trans ?_
  rw [Cert.LibMinAxis.ofBits_inf_f32]

end Cert.Chamfer.Tile

end
-- ==== Proof.ChamferTrip.lean ====
/-
  What one trip of the loop stores, read at explicit coordinates at the exact values.

  A trip holds 256 points of the first cloud. Into the running minimum kept per point of the second cloud it stores,
  stretch of 2048 columns by stretch, the minimum of what was there and the least distance from that point to the 256
  points. Into the running sum it stores what was there plus the sum, over the 256 points, of each point's running
  minimum over the four stretches, started at the top element.
-/
import proofs.«102500_j8117488190299_2_alg».proof.Proof.ChamferTile
import proofs.«102500_j8117488190299_2_alg».proof.Proof.LibCols

set_option maxRecDepth 16384

noncomputable section

namespace Cert.Chamfer.Tile

open Cert.KernelIdeal Cert.KernelIdeal.Gen Cert.KernelIdeal.Facts₀ Idealize.ShloMosaic Idealize.ShloMosaic.ValueIdx Finset

/-- The least distance from point `n` of the second cloud to the 256 points of the stretch. -/
def colMinT (tile : Vec Ideal S1x256x3 .f32) (v0 : Vec Ideal S1x3x8192 .f32) (n : Fin 8192) : EReal :=
  (univ : Finset (Fin 256)).fold min ⊤ (fun r => dval tile v0 r n)

/-- The least distance from point `r` of the stretch to the `j`-th stretch of the second cloud. -/
def chunkMinT (tile : Vec Ideal S1x256x3 .f32) (v0 : Vec Ideal S1x3x8192 .f32) (r : Fin 256) (j : Fin 4) : EReal :=
  (univ : Finset (Fin 2048)).fold min ⊤ (fun q => dval tile v0 r (Cert.Chamfer.col j q))

/-- Point `r`'s running minimum over the four stretches, from the top element. -/
def tileMinT (tile : Vec Ideal S1x256x3 .f32) (v0 : Vec Ideal S1x3x8192 .f32) (r : Fin 256) : EReal :=
  min (min (min (min ⊤ (chunkMinT tile v0 r 0)) (chunkMinT tile v0 r 1)) (chunkMinT tile v0 r 2)) (chunkMinT tile v0 r 3)

/-- A stored stretch of column minima over an abstract block: the minimum of what was there and the block's least
    entry per column. -/
theorem colStore_generic (D : FVec Ideal S256x2048 .f32) (a : Vec Ideal S1x2048 .f32) (h : S256x2048.Reduces [0] S2048)
    (hc : S2048.ShapeCasts S1x2048) (hs : S1x2048.ShapeCasts S1x2048) (q : Fin 2048) :
    shapeCast S1x2048 (minimumf a (shapeCast S1x2048 (multiReduction .minimumf [0] S2048 D 0x7F800000#32 h (.inl rfl) rfl) hc)) hs
        (ix2 (0 : Fin 1) q)
      = min (a (ix2 (0 : Fin 1) q)) ((univ : Finset (Fin 256)).fold min ⊤ (fun r => D (ix2 r q))) := by
  refine (congrFun (shapeCast_self _ hs) _).trans ?_
  refine (minimumf_apply _ _ _).trans ?_
  exact congrArg (min (a (ix2 (0 : Fin 1) q))) (colPart_apply D h hc q)

theorem store0_apply (tile : Vec Ideal S1x256x3 .f32) (v0 : Vec Ideal S1x3x8192 .f32) (a : Vec Ideal S1x2048 .f32) (q : Fin 2048) :
    k0_pay6 (F := Ideal) (k0_pay17 v0) (k0_pay18 v0) tile a (ix2 (0 : Fin 1) q)
      = min (a (ix2 (0 : Fin 1) q)) (colMinT tile v0 (Cert.Chamfer.col 0 q)) := by
  unfold k0_pay6
  refine (colStore_generic _ a _ _ _ q).trans ?_
  exact congrArg (min _) (Cert.LibMinFold.foldMin_congr _ _ fun r => block0_apply tile v0 r q)

theorem store1_apply (tile : Vec Ideal S1x256x3 .f32) (v0 : Vec Ideal S1x3x8192 .f32) (a : Vec Ideal S1x2048 .f32) (q : Fin 2048) :
    k0_pay11 (F := Ideal) (k0_pay7 (k0_pay17 v0) tile) (k0_pay8 tile) (k0_pay9 (k0_pay18 v0)) a (ix2 (0 : Fin 1) q)
      = min (a (ix2 (0 : Fin 1) q)) (colMinT tile v0 (Cert.Chamfer.col 1 q)) := by
  unfold k0_pay11
  refine (colStore_generic _ a _ _ _ q).trans ?_
  exact congrArg (min _) (Cert.LibMinFold.foldMin_congr _ _ fun r => block1_apply tile v0 r q)

theorem store2_apply (tile : Vec Ideal S1x256x3 .f32) (v0 : Vec Ideal S1x3x8192 .f32) (a : Vec Ideal S1x2048 .f32) (q : Fin 2048) :
    k0_pay14 (F := Ideal) (k0_pay17 v0) (k0_pay18 v0) (k0_pay2 tile) (k0_pay3 tile) a (ix2 (0 : Fin 1) q)
      = min (a (ix2 (0 : Fin 1) q)) (colMinT tile v0 (Cert.Chamfer.col 2 q)) := by
  unfold k0_pay14
  refine (colStore_generic _ a _ _ _ q).trans ?_
  exact congrArg (min _) (Cert.LibMinFold.foldMin_congr _ _ fun r => block2_apply tile v0 r q)

theorem store3_apply (tile : Vec Ideal S1x256x3 .f32) (v0 : Vec Ideal S1x3x8192 .f32) (a : Vec Ideal S1x2048 .f32) (q : Fin 2048) :
    k0_pay22 (F := Ideal) (k0_pay15 (k0_pay18 v0) (k0_pay3 tile)) (k0_pay16 (k0_pay17 v0) (k0_pay2 tile)) a (ix2 (0 : Fin 1) q)
      = min (a (ix2 (0 : Fin 1) q)) (colMinT tile v0 (Cert.Chamfer.col 3 q)) := by
  unfold k0_pay22
  refine (colStore_generic _ a _ _ _ q).trans ?_
  exact congrArg (min _) (Cert.LibMinFold.foldMin_congr _ _ fun r => block3_apply tile v0 r q)

/-- The stored running sum: what was there plus the 256 running minima. -/
theorem sumStore_apply (tile : Vec Ideal S1x256x3 .f32) (v0 : Vec Ideal S1x3x8192 .f32) (a5 : Vec Ideal S1x1 .f32) :
    k0_pay23 (F := Ideal)
        (k0_pay13 (k0_pay17 v0) (k0_pay18 v0) (k0_pay2 tile) (k0_pay3 tile) (k0_pay5 (k0_pay17 v0) (k0_pay18 v0) tile)
          (k0_pay7 (k0_pay17 v0) tile) (k0_pay8 tile) (k0_pay9 (k0_pay18 v0)))
        (k0_pay15 (k0_pay18 v0) (k0_pay3 tile)) (k0_pay16 (k0_pay17 v0) (k0_pay2 tile)) a5 (ix2 (0 : Fin 1) (0 : Fin 1))
      = a5 (ix2 (0 : Fin 1) (0 : Fin 1)) + ∑ r : Fin 256, tileMinT tile v0 r := by
  unfold k0_pay23
  refine (congrFun (shapeCast_self _ _) _).trans ?_
  refine (addf_apply _ _ _).trans ?_
  refine congrArg (a5 (ix2 (0 : Fin 1) (0 : Fin 1)) + ·) ?_
  refine (shapeCast_a_a1_apply _ _ (0 : Fin 1) (0 : Fin 1)).trans ?_
  refine (colSum_apply _ 0x00000000#32 _ (.inl rfl) rfl (0 : Fin 1)).trans ?_
  refine sum_congr rfl fun r _ => ?_
  refine (minimumf_apply _ _ _).trans ?_
  unfold tileMinT chunkMinT
  refine congrArg₂ min ?_ ?_
  · unfold k0_pay13
    refine (minimumf_apply _ _ _).trans ?_
    refine congrArg₂ min ?_ ?_
    · refine (minimumf_apply _ _ _).trans ?_
      refine congrArg₂ min ?_ ?_
      · unfold k0_pay5
        refine (minimumf_apply _ _ _).trans ?_
        refine congrArg₂ min ?_ ?_
        · exact Cert.LibMinAxis.ofBits_inf_f32
        · refine (rowPart_apply _ _ _ r).trans ?_
          exact Cert.LibMinFold.foldMin_congr _ _ fun q => block0_apply tile v0 r q
      · refine (rowPart_apply _ _ _ r).trans ?_
        exact Cert.LibMinFold.foldMin_congr _ _ fun q => block1_apply tile v0 r q
    · refine (rowPart_apply _ _ _ r).trans ?_
      exact Cert.LibMinFold.foldMin_congr _ _ fun q => block2_apply tile v0 r q
  · refine (rowPart_apply _ _ _ r).trans ?_
    exact Cert.LibMinFold.foldMin_congr _ _ fun q => block3_apply tile v0 r q

end Cert.Chamfer.Tile

end
-- ==== Proof.ChamferLoop.lean ====
/-
  The loop of the body, trip by trip, and what the body leaves in its output block.

  Before the loop the running minima (one per point of the second cloud) are set to the top element and the running sum to
  zero. Trip k stores, over what it finds, the minima and the sum of its stretch of 256 points of the first cloud. So after
  k trips the two buffers hold the running states of the specification, by induction on k; after all 32 trips the output
  block holds, in each of its 128 lanes, the sum of the first cloud's least distances times the reciprocal word plus the
  sum of the second cloud's least distances times the same word.
-/
import proofs.«102500_j8117488190299_2_alg».proof.Proof.Gen.KernelIdeal.Frame
import Idealize.ShloMosaic.Lib.WritesUnit
import Idealize.ShloMosaic.Lib.WholeRead
import proofs.«102500_j8117488190299_2_alg».proof.Proof.ChamferTrip
import proofs.«102500_j8117488190299_2_alg».proof.Proof.LibRows

set_option maxRecDepth 16384

noncomputable section

namespace Cert.Chamfer.Loop

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Chamfer.Tile Finset

theorem hz2 : (![0, 0] : Fin 2 → Nat) = fun _ => 0 := funext fun a => by fin_cases a <;> rfl
theorem hz3 : (![0, 0, 0] : Fin 3 → Nat) = fun _ => 0 := funext fun a => by fin_cases a <;> rfl

theorem trips_eq : k0_t1_loop.trips = 32 := by decide +kernel

/-! ## One trip's stores -/

section Pieces

variable {F : FTy → Type} [FloatOps F]

/-- The stretch of 256 points trip `k` loads. -/
def tileAt (arg1 : Memref sig .tc .vmem S1x8192x3 .f32) (X : BufTy.Contents (Elt F) arg1.view.ty) (k : Fin k0_t1_loop.trips) :
    Vec F S1x256x3 .f32 :=
  View.readAt (Elt F) arg1.view (Rect.unit (s := S1x8192x3) (k0_off1 k) S1x256x3.size (Facts₀.k0_off1_inb k)).toLoadRect X

/-- The four stretches of running minima a trip stores (last first), each over what it finds there. -/
def pieces4 (arg1 : Memref sig .tc .vmem S1x8192x3 .f32) (arg4 : Memref sig .tc .vmem S1x8192 .f32) (v0 : Vec F S1x3x8192 .f32)
    (X : BufTy.Contents (Elt F) arg1.view.ty) (k : Fin k0_t1_loop.trips) (f4 : BufTy.Contents (Elt F) arg4.view.ty) :
    List (View.Piece (Elt F) S1x8192 .f32) :=
  [ (⟨Rect.unit (s := S1x8192) ![0, 6144] S1x2048.size Facts₀.inb_S1x8192_S1x2048_0_6144,
      k0_pay22 (k0_pay15 (k0_pay18 v0) (k0_pay3 (tileAt arg1 X k))) (k0_pay16 (k0_pay17 v0) (k0_pay2 (tileAt arg1 X k)))
        (View.readAt (Elt F) arg4.view (Rect.unit (s := S1x8192) ![0, 6144] S1x2048.size Facts₀.inb_S1x8192_S1x2048_0_6144).toLoadRect f4)⟩ : View.Piece (Elt F) S1x8192 .f32),
    (⟨Rect.unit (s := S1x8192) ![0, 4096] S1x2048.size Facts₀.inb_S1x8192_S1x2048_0_4096,
      k0_pay14 (k0_pay17 v0) (k0_pay18 v0) (k0_pay2 (tileAt arg1 X k)) (k0_pay3 (tileAt arg1 X k))
        (View.readAt (Elt F) arg4.view (Rect.unit (s := S1x8192) ![0, 4096] S1x2048.size Facts₀.inb_S1x8192_S1x2048_0_4096).toLoadRect f4)⟩ : View.Piece (Elt F) S1x8192 .f32),
    (⟨Rect.unit (s := S1x8192) ![0, 2048] S1x2048.size Facts₀.inb_S1x8192_S1x2048_0_2048,
      k0_pay11 (k0_pay7 (k0_pay17 v0) (tileAt arg1 X k)) (k0_pay8 (tileAt arg1 X k)) (k0_pay9 (k0_pay18 v0))
        (View.readAt (Elt F) arg4.view (Rect.unit (s := S1x8192) ![0, 2048] S1x2048.size Facts₀.inb_S1x8192_S1x2048_0_2048).toLoadRect f4)⟩ : View.Piece (Elt F) S1x8192 .f32),
    (⟨Rect.unit (s := S1x8192) ![0, 0] S1x2048.size Facts₀.inb_S1x8192_S1x2048_0_0,
      k0_pay6 (k0_pay17 v0) (k0_pay18 v0) (tileAt arg1 X k)
        (View.readAt (Elt F) arg4.view (Rect.unit (s := S1x8192) ![0, 0] S1x2048.size Facts₀.inb_S1x8192_S1x2048_0_0).toLoadRect f4)⟩ : View.Piece (Elt F) S1x8192 .f32) ]

/-- The running sum a trip stores, over what it finds there. -/
def pieces5 (arg1 : Memref sig .tc .vmem S1x8192x3 .f32) (arg5 : Memref sig .tc .vmem S1x1 .f32) (v0 : Vec F S1x3x8192 .f32)
    (X : BufTy.Contents (Elt F) arg1.view.ty) (k : Fin k0_t1_loop.trips) (f5 : BufTy.Contents (Elt F) arg5.view.ty) :
    List (View.Piece (Elt F) S1x1 .f32) :=
  [ (⟨Rect.unit (s := S1x1) ![0, 0] S1x1.size Facts₀.inb_S1x1_S1x1_0_0,
      k0_pay23
        (k0_pay13 (k0_pay17 v0) (k0_pay18 v0) (k0_pay2 (tileAt arg1 X k)) (k0_pay3 (tileAt arg1 X k))
          (k0_pay5 (k0_pay17 v0) (k0_pay18 v0) (tileAt arg1 X k)) (k0_pay7 (k0_pay17 v0) (tileAt arg1 X k))
          (k0_pay8 (tileAt arg1 X k)) (k0_pay9 (k0_pay18 v0)))
        (k0_pay15 (k0_pay18 v0) (k0_pay3 (tileAt arg1 X k))) (k0_pay16 (k0_pay17 v0) (k0_pay2 (tileAt arg1 X k)))
        (View.readAt (Elt F) arg5.view (Rect.unit (s := S1x1) ![0, 0] S1x1.size Facts₀.inb_S1x1_S1x1_0_0).toLoadRect f5)⟩ : View.Piece (Elt F) S1x1 .f32) ]

/-- The trip's piece lists are these. -/
theorem tripL_eq (c : Dev nD) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x128 .f32) (harg3 : arg3.IsWhole) (arg4 : Memref sig .tc .vmem S1x8192 .f32) (harg4 : arg4.IsWhole) (arg5 : Memref sig .tc .vmem S1x1 .f32) (harg5 : arg5.IsWhole) (v0 : Vec F S1x3x8192 .f32)
    (X : BufTy.Contents (Elt F) arg1.view.ty) (k : Fin k0_t1_loop.trips) (f4 : BufTy.Contents (Elt F) arg4.view.ty)
    (f5 : BufTy.Contents (Elt F) arg5.view.ty) :
    tripL_k0_t1 (F := F) Variants.none c none i arg1 harg1 arg2 harg2 arg3 harg3 arg4 harg4 arg5 harg5 v0 X k f4 f5
      = (pieces4 arg1 arg4 v0 X k f4, pieces5 arg1 arg5 v0 X k f5) := by
  unfold tripL_k0_t1 trip_k0_t1
  dsimp only
  sl_unfold_words
  rfl

end Pieces

/-! ## Reading what a trip leaves, at the exact values -/

section Read

/-- An index whose column lies in the stretch from `off` is in that stretch's rectangle. -/
theorem mem_chunk (off : ℕ) (inb : ∀ a, (![0, off] : Fin 2 → ℕ) a + S1x2048.size a ≤ S1x8192.size a) (y : S1x8192.Idx)
    (h : off ≤ (y 1).val ∧ (y 1).val < off + 2048) :
    y ∈ (Rect.unit (s := S1x8192) ![0, off] S1x2048.size inb).set :=
  Rect.mem_set_unit.mpr fun a => by
    match a with
    | ⟨0, _⟩ =>
      have h0 : (y 0).val < 1 := (y 0).isLt
      exact ⟨Nat.zero_le _, by show (y 0).val < 0 + 1; omega⟩
    | ⟨1, _⟩ => exact h

/-- After a trip's four stores every running minimum is its minimum with the least distance to the trip's stretch. -/
theorem read_new4 (arg1 : Memref sig .tc .vmem S1x8192x3 .f32) (arg4 : Memref sig .tc .vmem S1x8192 .f32)
    (v0 : Vec Ideal S1x3x8192 .f32) (X : BufTy.Contents (Elt Ideal) arg1.view.ty) (k : Fin k0_t1_loop.trips)
    (f4 : BufTy.Contents (Elt Ideal) arg4.view.ty) (y : S1x8192.Idx) :
    arg4.view.read (Elt Ideal) (arg4.view.writes (Elt Ideal) f4 (pieces4 arg1 arg4 v0 X k f4)) y
      = min (arg4.view.read (Elt Ideal) f4 y) (colMinT (tileAt arg1 X k) v0 ⟨(y 1).val, (y 1).isLt⟩) := by
  refine View.read_writes_apply_of_pieces arg4.view f4
    (fun y => min (arg4.view.read (Elt Ideal) f4 y) (colMinT (tileAt arg1 X k) v0 ⟨(y 1).val, (y 1).isLt⟩))
    (pieces4 arg1 arg4 v0 X k f4) ?_ y ?_
  · intro p hp x
    unfold pieces4 at hp
    simp only [List.mem_cons, List.mem_nil_iff, or_false] at hp
    rcases hp with rfl | rfl | rfl | rfl
    · obtain ⟨u, q, rfl⟩ : ∃ (u : Fin 1) (q : Fin 2048), x = ix2 u q := ⟨x 0, x 1, eq_ix2 x⟩
      obtain rfl : u = 0 := Subsingleton.elim _ _
      refine (store3_apply _ v0 _ q).trans ?_
      refine congrArg₂ min rfl (congrArg (colMinT _ v0) (Fin.ext ?_))
      show 2048 * 3 + q.val = 6144 + 1 * q.val
      omega
    · obtain ⟨u, q, rfl⟩ : ∃ (u : Fin 1) (q : Fin 2048), x = ix2 u q := ⟨x 0, x 1, eq_ix2 x⟩
      obtain rfl : u = 0 := Subsingleton.elim _ _
      refine (store2_apply _ v0 _ q).trans ?_
      refine congrArg₂ min rfl (congrArg (colMinT _ v0) (Fin.ext ?_))
      show 2048 * 2 + q.val = 4096 + 1 * q.val
      omega
    · obtain ⟨u, q, rfl⟩ : ∃ (u : Fin 1) (q : Fin 2048), x = ix2 u q := ⟨x 0, x 1, eq_ix2 x⟩
      obtain rfl : u = 0 := Subsingleton.elim _ _
      refine (store1_apply _ v0 _ q).trans ?_
      refine congrArg₂ min rfl (congrArg (colMinT _ v0) (Fin.ext ?_))
      show 2048 * 1 + q.val = 2048 + 1 * q.val
      omega
    · obtain ⟨u, q, rfl⟩ : ∃ (u : Fin 1) (q : Fin 2048), x = ix2 u q := ⟨x 0, x 1, eq_ix2 x⟩
      obtain rfl : u = 0 := Subsingleton.elim _ _
      refine (store0_apply _ v0 _ q).trans ?_
      refine congrArg₂ min rfl (congrArg (colMinT _ v0) (Fin.ext ?_))
      show 2048 * 0 + q.val = 0 + 1 * q.val
      omega
  · have h1 : (y 1).val < 8192 := (y 1).isLt
    unfold pieces4
    by_cases c3 : 6144 ≤ (y 1).val
    · exact ⟨_, List.mem_cons_self, mem_chunk 6144 Facts₀.inb_S1x8192_S1x2048_0_6144 y ⟨c3, by omega⟩⟩
    by_cases c2 : 4096 ≤ (y 1).val
    · exact ⟨_, List.mem_cons_of_mem _ List.mem_cons_self, mem_chunk 4096 Facts₀.inb_S1x8192_S1x2048_0_4096 y ⟨c2, by omega⟩⟩
    by_cases c1 : 2048 ≤ (y 1).val
    · exact ⟨_, List.mem_cons_of_mem _ (List.mem_cons_of_mem _ List.mem_cons_self), mem_chunk 2048 Facts₀.inb_S1x8192_S1x2048_0_2048 y ⟨c1, by omega⟩⟩
    · exact ⟨_, List.mem_cons_of_mem _ (List.mem_cons_of_mem _ (List.mem_cons_of_mem _ List.mem_cons_self)),
        mem_chunk 0 Facts₀.inb_S1x8192_S1x2048_0_0 y ⟨Nat.zero_le _, by omega⟩⟩

/-- After a trip's store the running sum is what it was plus the trip's 256 running minima. -/
theorem read_new5 (arg1 : Memref sig .tc .vmem S1x8192x3 .f32) (arg5 : Memref sig .tc .vmem S1x1 .f32)
    (v0 : Vec Ideal S1x3x8192 .f32) (X : BufTy.Contents (Elt Ideal) arg1.view.ty) (k : Fin k0_t1_loop.trips)
    (f5 : BufTy.Contents (Elt Ideal) arg5.view.ty) :
    arg5.view.read (Elt Ideal) (arg5.view.writes (Elt Ideal) f5 (pieces5 arg1 arg5 v0 X k f5)) (ix2 (0 : Fin 1) (0 : Fin 1))
      = arg5.view.read (Elt Ideal) f5 (ix2 (0 : Fin 1) (0 : Fin 1)) + ∑ r : Fin 256, tileMinT (tileAt arg1 X k) v0 r := by
  unfold pieces5
  refine (View.read_writes_cons_unit_of_mem arg5.view f5 _ _ [] (ix2 (0 : Fin 1) (0 : Fin 1)) (ix2 (0 : Fin 1) (0 : Fin 1)) rfl
    (fun a => by match a with | ⟨0, _⟩ => rfl | ⟨1, _⟩ => rfl)).trans ?_
  refine (sumStore_apply _ v0 _).trans ?_
  exact congrArg (· + ∑ r : Fin 256, tileMinT (tileAt arg1 X k) v0 r)
    (congrFun (View.ld_unit_zero hz2 _ (arg5.view.read (Elt Ideal) f5)) _)

end Read

/-! ## The loop, by induction on the trips -/

section Induction

/-- The two clouds of a grid point's blocks: the first block holds point `m` at (0, m, ·); the second, transposed, holds
    point `n` at (0, ·, n). -/
def cloudP (x0 : Vec Ideal S1x8192x3 .f32) : Fin 8192 → Fin 3 → EReal := fun m d => x0 (ix3 0 m d)
def cloudQ (x1 : Vec Ideal S1x3x8192 .f32) : Fin 8192 → Fin 3 → EReal := fun n d => x1 (ix3 0 d n)

variable (arg1 : Memref sig .tc .vmem S1x8192x3 .f32) (harg1 : arg1.IsWhole) (x0 : Vec Ideal S1x8192x3 .f32)
  (x1 : Vec Ideal S1x3x8192 .f32) (k : Fin k0_t1_loop.trips) (k' : Fin 32) (hk : k'.val = k.val)

include hk

/-- Trip `k`'s point `r` is point `256·k + r` of the first cloud. -/
theorem tileAt_apply (r : Fin 256) (d : Fin 3) :
    tileAt (F := Ideal) arg1 (harg1.unread x0) k (ix3 0 r d) = x0 (ix3 0 (Cert.Chamfer.row k' r) d) := by
  unfold tileAt
  refine (harg1.readAt_unread x0 _ _).trans (congrArg x0 (funext fun a => Fin.ext ?_))
  have ho := k0_off1_eq k
  match a with
  | ⟨0, _⟩ =>
    show k0_off1 k 0 + 1 * 0 = 0
    rw [ho]; rfl
  | ⟨1, _⟩ =>
    show k0_off1 k 1 + 1 * r.val = 256 * k'.val + r.val
    rw [ho, hk]; show 256 * k.val + 1 * r.val = 256 * k.val + r.val
    omega
  | ⟨2, _⟩ =>
    show k0_off1 k 2 + 1 * d.val = d.val
    rw [ho]; show 0 + 1 * d.val = d.val
    omega

theorem dval_eq (r : Fin 256) (n : Fin 8192) :
    dval (tileAt (F := Ideal) arg1 (harg1.unread x0) k) x1 r n
      = Cert.Chamfer.dist two (cloudP x0) (cloudQ x1) (Cert.Chamfer.row k' r) n := by
  have e : (fun d => tileAt (F := Ideal) arg1 (harg1.unread x0) k (ix3 0 r d)) = fun d => x0 (ix3 0 (Cert.Chamfer.row k' r) d) :=
    funext fun d => tileAt_apply arg1 harg1 x0 k k' hk r d
  show Cert.Chamfer.sq (fun d => tileAt (F := Ideal) arg1 (harg1.unread x0) k (ix3 0 r d)) + Cert.Chamfer.sq (fun d => x1 (ix3 0 d n))
      - two * ∑ d : Fin 3, tileAt (F := Ideal) arg1 (harg1.unread x0) k (ix3 0 r d) * x1 (ix3 0 d n)
    = Cert.Chamfer.sq (fun d => x0 (ix3 0 (Cert.Chamfer.row k' r) d)) + Cert.Chamfer.sq (fun d => x1 (ix3 0 d n))
      - two * ∑ d : Fin 3, x0 (ix3 0 (Cert.Chamfer.row k' r) d) * x1 (ix3 0 d n)
  rw [e]
  exact congrArg (fun z => _ - two * z) (sum_congr rfl fun d _ => by rw [tileAt_apply arg1 harg1 x0 k k' hk r d])

theorem colMinT_eq (n : Fin 8192) :
    colMinT (tileAt (F := Ideal) arg1 (harg1.unread x0) k) x1 n = Cert.Chamfer.colTile two (cloudP x0) (cloudQ x1) k' n :=
  Cert.LibMinFold.foldMin_congr _ _ fun r => dval_eq arg1 harg1 x0 x1 k k' hk r n

theorem tileMinT_eq (r : Fin 256) :
    tileMinT (tileAt (F := Ideal) arg1 (harg1.unread x0) k) x1 r
      = Cert.Chamfer.tileMin two (cloudP x0) (cloudQ x1) (Cert.Chamfer.row k' r) := by
  have e : ∀ j, chunkMinT (tileAt (F := Ideal) arg1 (harg1.unread x0) k) x1 r j
      = Cert.Chamfer.chunkMin two (cloudP x0) (cloudQ x1) (Cert.Chamfer.row k' r) j :=
    fun j => Cert.LibMinFold.foldMin_congr _ _ fun q => dval_eq arg1 harg1 x0 x1 k k' hk r (Cert.Chamfer.col j q)
  unfold tileMinT Cert.Chamfer.tileMin
  rw [e 0, e 1, e 2, e 3]

end Induction

/-! ## The invariant of the loop -/

section Run

/-- The second cloud's block as the body loads it: the block itself. -/
def v0Of (arg2 : Memref sig .tc .vmem S1x3x8192 .f32) (harg2 : arg2.IsWhole) (x1 : Vec Ideal S1x3x8192 .f32) :
    Vec Ideal S1x3x8192 .f32 :=
  View.readAt (Elt Ideal) arg2.view
    (Rect.unit (s := S1x3x8192) ![0, 0, 0] S1x3x8192.size Facts₀.inb_S1x3x8192_S1x3x8192_0_0_0).toLoadRect (harg2.unread x1)

theorem v0Of_eq (arg2 : Memref sig .tc .vmem S1x3x8192 .f32) (harg2 : arg2.IsWhole) (x1 : Vec Ideal S1x3x8192 .f32) :
    v0Of arg2 harg2 x1 = x1 := by
  unfold v0Of
  rw [View.readAt_eq_ld, harg2.read_unread]
  exact View.ld_unit_zero hz3 _ x1

/-- The two buffers at loop entry: the running minima at the top element, the running sum at zero. -/
def G4 (arg4 : Memref sig .tc .vmem S1x8192 .f32) : BufTy.Contents (Elt Ideal) arg4.view.ty :=
  arg4.view.writes (Elt Ideal) arg4.view.junk
    [(⟨Rect.unit (s := S1x8192) ![0, 0] S1x8192.size Facts₀.inb_S1x8192_S1x8192_0_0, k0_pay20 (F := Ideal)⟩ : View.Piece (Elt Ideal) S1x8192 .f32)]

def G5 (arg5 : Memref sig .tc .vmem S1x1 .f32) : BufTy.Contents (Elt Ideal) arg5.view.ty :=
  arg5.view.writes (Elt Ideal) arg5.view.junk
    [(⟨Rect.unit (s := S1x1) ![0, 0] S1x1.size Facts₀.inb_S1x1_S1x1_0_0, k0_pay19 (F := Ideal)⟩ : View.Piece (Elt Ideal) S1x1 .f32)]

theorem G4_read (arg4 : Memref sig .tc .vmem S1x8192 .f32) (y : S1x8192.Idx) :
    arg4.view.read (Elt Ideal) (G4 arg4) y = ⊤ := by
  unfold G4
  refine (View.read_writes_cons_unit_of_mem (off' := ![0, 0]) arg4.view _ _ _ [] y y rfl (fun a => by
    match a with
    | ⟨0, _⟩ => exact (Nat.zero_add _).symm
    | ⟨1, _⟩ => exact (Nat.zero_add _).symm)).trans ?_
  unfold k0_pay20
  exact (congrFun (shapeCast_self _ _) y).trans Cert.LibMinAxis.ofBits_inf_f32

theorem G5_read (arg5 : Memref sig .tc .vmem S1x1 .f32) :
    arg5.view.read (Elt Ideal) (G5 arg5) (ix2 (0 : Fin 1) (0 : Fin 1)) = 0 := by
  unfold G5
  refine (View.read_writes_cons_unit_of_mem (off' := ![0, 0]) arg5.view _ _ _ [] (ix2 (0 : Fin 1) (0 : Fin 1)) (ix2 (0 : Fin 1) (0 : Fin 1)) rfl
    (fun a => by match a with | ⟨0, _⟩ => rfl | ⟨1, _⟩ => rfl)).trans ?_
  unfold k0_pay19
  exact (congrFun (shapeCast_self _ _) _).trans Ideal.ofBits_zero_f32

variable (c : Dev nD) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x128 .f32) (harg3 : arg3.IsWhole) (arg4 : Memref sig .tc .vmem S1x8192 .f32) (harg4 : arg4.IsWhole) (arg5 : Memref sig .tc .vmem S1x1 .f32) (harg5 : arg5.IsWhole) (x0 : Vec Ideal S1x8192x3 .f32) (x1 : Vec Ideal S1x3x8192 .f32)

/-- The pieces of the first `kk + 1` trips are trip `kk`'s, over what the first `kk` left, in front of theirs. -/
theorem pb_succ (kk : ℕ) (hkt : kk < k0_t1_loop.trips) :
    (pb_k0_t1 (F := Ideal) Variants.none c none i arg1 harg1 arg2 harg2 arg3 harg3 arg4 harg4 arg5 harg5 (v0Of arg2 harg2 x1) (harg1.unread x0) (G4 arg4) (G5 arg5) (kk + 1))
      = (pieces4 arg1 arg4 (v0Of arg2 harg2 x1) (harg1.unread x0) ⟨kk, hkt⟩
            (arg4.view.writes (Elt Ideal) (G4 arg4) (pb_k0_t1 (F := Ideal) Variants.none c none i arg1 harg1 arg2 harg2 arg3 harg3 arg4 harg4 arg5 harg5 (v0Of arg2 harg2 x1) (harg1.unread x0) (G4 arg4) (G5 arg5) kk).1) ++ (pb_k0_t1 (F := Ideal) Variants.none c none i arg1 harg1 arg2 harg2 arg3 harg3 arg4 harg4 arg5 harg5 (v0Of arg2 harg2 x1) (harg1.unread x0) (G4 arg4) (G5 arg5) kk).1,
         pieces5 arg1 arg5 (v0Of arg2 harg2 x1) (harg1.unread x0) ⟨kk, hkt⟩
            (arg5.view.writes (Elt Ideal) (G5 arg5) (pb_k0_t1 (F := Ideal) Variants.none c none i arg1 harg1 arg2 harg2 arg3 harg3 arg4 harg4 arg5 harg5 (v0Of arg2 harg2 x1) (harg1.unread x0) (G4 arg4) (G5 arg5) kk).2) ++ (pb_k0_t1 (F := Ideal) Variants.none c none i arg1 harg1 arg2 harg2 arg3 harg3 arg4 harg4 arg5 harg5 (v0Of arg2 harg2 x1) (harg1.unread x0) (G4 arg4) (G5 arg5) kk).2) := by
  have hs := pb_k0_t1_succ (F := Ideal) Variants.none c none i arg1 harg1 arg2 harg2 arg3 harg3 arg4 harg4 arg5 harg5
    (v0Of arg2 harg2 x1) (harg1.unread x0) (G4 arg4) (G5 arg5) ⟨kk, hkt⟩
  rw [tripL_eq] at hs
  exact hs

/-- After `kk` trips the two buffers hold the running states. -/
theorem loop_inv : ∀ kk : ℕ, kk ≤ 32 →
    (∀ y : S1x8192.Idx, arg4.view.read (Elt Ideal) (arg4.view.writes (Elt Ideal) (G4 arg4) (pb_k0_t1 (F := Ideal) Variants.none c none i arg1 harg1 arg2 harg2 arg3 harg3 arg4 harg4 arg5 harg5 (v0Of arg2 harg2 x1) (harg1.unread x0) (G4 arg4) (G5 arg5) kk).1) y
        = Cert.Chamfer.colState two (cloudP x0) (cloudQ x1) kk ⟨(y 1).val, (y 1).isLt⟩)
      ∧ arg5.view.read (Elt Ideal) (arg5.view.writes (Elt Ideal) (G5 arg5) (pb_k0_t1 (F := Ideal) Variants.none c none i arg1 harg1 arg2 harg2 arg3 harg3 arg4 harg4 arg5 harg5 (v0Of arg2 harg2 x1) (harg1.unread x0) (G4 arg4) (G5 arg5) kk).2) (ix2 (0 : Fin 1) (0 : Fin 1))
        = Cert.Chamfer.rowState two (cloudP x0) (cloudQ x1) kk
  | 0, _ => ⟨fun y => G4_read arg4 y, G5_read arg5⟩
  | kk + 1, hk => by
    obtain ⟨ih4, ih5⟩ := loop_inv kk (Nat.le_of_succ_le hk)
    have hk32 : kk < 32 := hk
    have hkt : kk < k0_t1_loop.trips := by rw [trips_eq]; exact hk32
    have hs := pb_succ c i arg1 harg1 arg2 harg2 arg3 harg3 arg4 harg4 arg5 harg5 x0 x1 kk hkt
    refine ⟨fun y => ?_, ?_⟩
    · rw [hs]
      show arg4.view.read (Elt Ideal) (arg4.view.writes (Elt Ideal) (G4 arg4) (pieces4 arg1 arg4 (v0Of arg2 harg2 x1) (harg1.unread x0) ⟨kk, hkt⟩
            (arg4.view.writes (Elt Ideal) (G4 arg4) (pb_k0_t1 (F := Ideal) Variants.none c none i arg1 harg1 arg2 harg2 arg3 harg3 arg4 harg4 arg5 harg5 (v0Of arg2 harg2 x1) (harg1.unread x0) (G4 arg4) (G5 arg5) kk).1) ++ (pb_k0_t1 (F := Ideal) Variants.none c none i arg1 harg1 arg2 harg2 arg3 harg3 arg4 harg4 arg5 harg5 (v0Of arg2 harg2 x1) (harg1.unread x0) (G4 arg4) (G5 arg5) kk).1)) y = _
      rw [View.writes_append]
      refine (read_new4 arg1 arg4 _ _ ⟨kk, hkt⟩ _ y).trans ?_
      rw [ih4 y, v0Of_eq, colMinT_eq arg1 harg1 x0 x1 ⟨kk, hkt⟩ ⟨kk, hk32⟩ rfl]
      exact (Cert.Chamfer.runMin_succ (fun t => Cert.Chamfer.colTile two (cloudP x0) (cloudQ x1) t ⟨(y 1).val, (y 1).isLt⟩) ⟨kk, hk32⟩).symm
    · rw [hs]
      show arg5.view.read (Elt Ideal) (arg5.view.writes (Elt Ideal) (G5 arg5) (pieces5 arg1 arg5 (v0Of arg2 harg2 x1) (harg1.unread x0) ⟨kk, hkt⟩
            (arg5.view.writes (Elt Ideal) (G5 arg5) (pb_k0_t1 (F := Ideal) Variants.none c none i arg1 harg1 arg2 harg2 arg3 harg3 arg4 harg4 arg5 harg5 (v0Of arg2 harg2 x1) (harg1.unread x0) (G4 arg4) (G5 arg5) kk).2) ++ (pb_k0_t1 (F := Ideal) Variants.none c none i arg1 harg1 arg2 harg2 arg3 harg3 arg4 harg4 arg5 harg5 (v0Of arg2 harg2 x1) (harg1.unread x0) (G4 arg4) (G5 arg5) kk).2)) (ix2 (0 : Fin 1) (0 : Fin 1)) = _
      rw [View.writes_append]
      refine (read_new5 arg1 arg5 _ _ ⟨kk, hkt⟩ _).trans ?_
      rw [ih5, v0Of_eq, sum_congr rfl fun r _ => tileMinT_eq arg1 harg1 x0 x1 ⟨kk, hkt⟩ ⟨kk, hk32⟩ rfl r]
      exact (Cert.Chamfer.runSum_succ 0 (fun t : Fin 32 => ∑ r : Fin 256, Cert.Chamfer.tileMin two (cloudP x0) (cloudQ x1) (Cert.Chamfer.row t r)) ⟨kk, hk32⟩).symm

end Run

/-! ## The output block -/

section Output

/-- The reciprocal of the number of points, as its f32 word. -/
abbrev cw : EReal := Ideal.ofBits .f32 0x39000000#32

/-- The result block: in each lane, the running sum times the reciprocal word plus the running minima's sum times it. -/
theorem result_apply (v22 : Vec Ideal S1x1 .f32) (v25 : Vec Ideal S1x8192 .f32) (l : Fin 128) :
    k0_pay1 (F := Ideal) (k0_pay24 v22 v25) (ix3 (0 : Fin 1) (0 : Fin 1) l)
      = v22 (ix2 (0 : Fin 1) (0 : Fin 1)) * cw + (∑ n : Fin 8192, v25 (ix2 (0 : Fin 1) n)) * cw := by
  unfold k0_pay1
  refine (shapeCast_ab_1ab_apply _ _ (0 : Fin 1) (0 : Fin 1) l).trans ?_
  unfold k0_pay24
  refine (broadcastTo_a1_ab_apply _ _ (0 : Fin 1) l).trans ?_
  refine (congrFun (shapeCast_self _ _) _).trans ?_
  refine (addf_apply _ _ _).trans ?_
  refine congrArg₂ (· + ·) ?_ ?_
  · exact mulf_apply _ _ _
  · refine (mulf_apply _ _ _).trans ?_
    refine congrArg (· * cw) ?_
    refine (shapeCast_a_a1_apply _ _ (0 : Fin 1) (0 : Fin 1)).trans ?_
    exact rowSum_apply _ 0x00000000#32 _ (.inl rfl) rfl (0 : Fin 1)

variable (c : Dev nD) (i : grid0.Coords) (arg1 : Memref sig .tc .vmem S1x8192x3 .f32) (harg1 : arg1.IsWhole) (arg2 : Memref sig .tc .vmem S1x3x8192 .f32) (harg2 : arg2.IsWhole) (arg3 : Memref sig .tc .vmem S1x1x128 .f32) (harg3 : arg3.IsWhole) (arg4 : Memref sig .tc .vmem S1x8192 .f32) (harg4 : arg4.IsWhole) (arg5 : Memref sig .tc .vmem S1x1 .f32) (harg5 : arg5.IsWhole) (x0 : Vec Ideal S1x8192x3 .f32) (x1 : Vec Ideal S1x3x8192 .f32)

/-- After all trips each running minimum is the least distance from its point of the second cloud to the first. -/
theorem final4 (kk : ℕ) (hkk : kk = 32) (y : S1x8192.Idx) :
    arg4.view.read (Elt Ideal) (arg4.view.writes (Elt Ideal) arg4.view.junk ((pb_k0_t1 (F := Ideal) Variants.none c none i arg1 harg1 arg2 harg2 arg3 harg3 arg4 harg4 arg5 harg5 (v0Of arg2 harg2 x1) (harg1.unread x0) (G4 arg4) (G5 arg5) kk).1 ++ [(⟨Rect.unit (s := S1x8192) ![0, 0] S1x8192.size Facts₀.inb_S1x8192_S1x8192_0_0, k0_pay20 (F := Ideal)⟩ : View.Piece (Elt Ideal) S1x8192 .f32)])) y
      = Cert.Chamfer.colMin two (cloudP x0) (cloudQ x1) ⟨(y 1).val, (y 1).isLt⟩ := by
  subst hkk
  rw [View.writes_append]
  show arg4.view.read (Elt Ideal) (arg4.view.writes (Elt Ideal) (G4 arg4) (pb_k0_t1 (F := Ideal) Variants.none c none i arg1 harg1 arg2 harg2 arg3 harg3 arg4 harg4 arg5 harg5 (v0Of arg2 harg2 x1) (harg1.unread x0) (G4 arg4) (G5 arg5) 32).1) y = _
  exact ((loop_inv c i arg1 harg1 arg2 harg2 arg3 harg3 arg4 harg4 arg5 harg5 x0 x1 32 (Nat.le_refl _)).1 y).trans (Cert.Chamfer.colState_final _ _ _ _)

/-- After all trips the running sum is the sum of the first cloud's least distances. -/
theorem final5 (kk : ℕ) (hkk : kk = 32) :
    arg5.view.read (Elt Ideal) (arg5.view.writes (Elt Ideal) arg5.view.junk ((pb_k0_t1 (F := Ideal) Variants.none c none i arg1 harg1 arg2 harg2 arg3 harg3 arg4 harg4 arg5 harg5 (v0Of arg2 harg2 x1) (harg1.unread x0) (G4 arg4) (G5 arg5) kk).2 ++ [(⟨Rect.unit (s := S1x1) ![0, 0] S1x1.size Facts₀.inb_S1x1_S1x1_0_0, k0_pay19 (F := Ideal)⟩ : View.Piece (Elt Ideal) S1x1 .f32)])) (ix2 (0 : Fin 1) (0 : Fin 1))
      = ∑ m, Cert.Chamfer.rowMin two (cloudP x0) (cloudQ x1) m := by
  subst hkk
  rw [View.writes_append]
  show arg5.view.read (Elt Ideal) (arg5.view.writes (Elt Ideal) (G5 arg5) (pb_k0_t1 (F := Ideal) Variants.none c none i arg1 harg1 arg2 harg2 arg3 harg3 arg4 harg4 arg5 harg5 (v0Of arg2 harg2 x1) (harg1.unread x0) (G4 arg4) (G5 arg5) 32).2) (ix2 (0 : Fin 1) (0 : Fin 1)) = _
  exact ((loop_inv c i arg1 harg1 arg2 harg2 arg3 harg3 arg4 harg4 arg5 harg5 x0 x1 32 (Nat.le_refl _)).2).trans (Cert.Chamfer.rowState_final _ _ _)

/-- What the body leaves in its output block: the batch's value in every lane. -/
theorem out_eq (y : S1x1x128.Idx) :
    out0_A_2 (F := Ideal) c i arg1 harg1 arg2 harg2 arg3 harg3 arg4 harg4 arg5 harg5 x0 x1 y = Cert.Chamfer.batch two (cloudP x0) (cloudQ x1) cw := by
  obtain ⟨u, u', l, rfl⟩ : ∃ (u u' : Fin 1) (l : Fin 128), y = ix3 u u' l := ⟨y 0, y 1, y 2, eq_ix3 y⟩
  obtain rfl : u = 0 := Subsingleton.elim _ _
  obtain rfl : u' = 0 := Subsingleton.elim _ _
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero hz3]
  refine (result_apply _ _ l).trans ?_
  unfold Cert.Chamfer.batch
  refine congrArg₂ (· + ·) (congrArg (· * cw) ?_) (congrArg (· * cw) ?_)
  · refine (congrFun (View.ld_unit_zero hz2 _ _) _).trans ?_
    exact final5 c i arg1 harg1 arg2 harg2 arg3 harg3 arg4 harg4 arg5 harg5 x0 x1 _ trips_eq
  · refine sum_congr rfl fun n _ => ?_
    refine (congrFun (View.ld_unit_zero hz2 _ _) _).trans ?_
    exact final4 c i arg1 harg1 arg2 harg2 arg3 harg3 arg4 harg4 arg5 harg5 x0 x1 _ trips_eq (ix2 (0 : Fin 1) n)

end Output

end Cert.Chamfer.Loop

end
-- ==== Proof.ChamferTail.lean ====
/-
  The last step both programs share: the mean of the four batches' values, a sum started at the zero word divided by
  the word of 4.
-/
import Idealize.ShloMosaic.PureOps
import Idealize.ShloMosaic.PureOps.Ideal

noncomputable section

namespace Cert.Chamfer

open Idealize.ShloMosaic

/-- The mean of four values as both programs take it. -/
def meanOf4 (v : (⟨1, ![4]⟩ : Shape).Idx → Elt Ideal .f32) (h1 : (⟨1, ![4]⟩ : Shape).ReducesTo [0] ⟨0, ![]⟩)
    (h2 : 0 < (⟨0, ![]⟩ : Shape).numel) : (⟨0, ![]⟩ : Shape).Idx → Elt Ideal .f32 :=
  Host.divf (F := Ideal) (Host.reduceAdd (F := Ideal) v (constant (F := Ideal) ⟨0, ![]⟩ .f32 0x00000000#32) h1 h2)
    (constant (F := Ideal) ⟨0, ![]⟩ .f32 0x40800000#32)

end Cert.Chamfer

end
-- ==== Proof.ChamferKernel.lean ====
/-
  The kernel's run with its result named.

  The call's grid has one point per batch; point t reads batch t's block of the first cloud and batch t's block of the
  second cloud transposed (the host transposes it before the call), and writes back a [1, 1, 128] block holding the
  batch's value in every lane. The four blocks tile the call's result array, so after the run row b of that array holds
  batch b's value; the host lines after the call take lane 0 of each row and the mean of the four.
-/
import proofs.«102500_j8117488190299_2_alg».proof.Proof.Gen.KernelIdeal.Frame
import Idealize.ShloMosaic.Lib.Pipeline.Value
import Idealize.ShloMosaic.Lib.StableHlo.Run
import Idealize.ShloMosaic.Lib.ValueLayout
import proofs.«102500_j8117488190299_2_alg».proof.Proof.ChamferLoop
import proofs.«102500_j8117488190299_2_alg».proof.Proof.ChamferTail

set_option maxRecDepth 16384

noncomputable section

namespace Cert.Chamfer.Kernel

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Chamfer.Tile Cert.Chamfer.Loop Finset

variable (m : (ℓ : Loc nD τ sig) → Buf (Elt Ideal) ℓ) (ρ : Dev nD → PrngReg)

/-- Batch `b`'s value from the two argument arrays. -/
def batchOf (a0 a1 : S4x8192x3.Idx → EReal) (b : Fin 4) : EReal :=
  Cert.Chamfer.batch two (fun mm d => a0 (ix3 b mm d)) (fun n d => a1 (ix3 b n d)) cw

/-- What the call's result array holds: batch `b`'s value in every lane of row `b`. -/
def Gout (a0 a1 : S4x8192x3.Idx → EReal) : S4x1x128.Idx → EReal := fun j => batchOf a0 a1 ⟨(j 0).val, (j 0).isLt⟩

/-- The printed index maps over the grid: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ t.val < 4 :=
  (by decide +kernel : ∀ t : Fin grid0.N, _)

/-- The second window's array is the second argument with its two last axes exchanged. -/
theorem V_main_v0 (c : Dev nD) :
    (V m c main_v0 : S4x3x8192.Idx → EReal)
      = transpose S4x3x8192 [0, 2, 1] (m ((c : Thread nD τ).loc main_arg1)) Facts₀.transposes_S4x8192x3_S4x3x8192_0_2_1 := by
  show StableHlo.after hostOps0 (fun b => m (c, b)) (Proc.devRef .tc main_v0) = _
  after_results

/-- Point `t`'s block of the first cloud is batch `t` of the first argument. -/
theorem iblk0_apply (c : Dev nD) (t : Fin cfg0.N) (b : Fin 4) (hb : b.val = t.val) (mm : Fin 8192) (d : Fin 3) :
    (iblk m c 0 t : S1x8192x3.Idx → EReal) (ix3 (0 : Fin 1) mm d) = m ((c : Thread nD τ).loc main_arg0) (ix3 b mm d) := by
  obtain ⟨e0, e1, e2, -⟩ := idx_facts t
  unfold iblk
  show V m c main_arg0 (((cfg0.win 0).blk t).view.emb (ix3 (0 : Fin 1) mm d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 8192 + 1 * mm.val = mm.val; omega
  | ⟨2, _⟩ => show win0_0.index t (2 : Fin 3) * 3 + 1 * d.val = d.val; omega

/-- Point `t`'s block of the second cloud, transposed, is batch `t` of the second argument. -/
theorem iblk1_apply (c : Dev nD) (t : Fin cfg0.N) (b : Fin 4) (hb : b.val = t.val) (d : Fin 3) (n : Fin 8192) :
    (iblk m c 1 t : S1x3x8192.Idx → EReal) (ix3 (0 : Fin 1) d n) = m ((c : Thread nD τ).loc main_arg1) (ix3 b n d) := by
  obtain ⟨-, -, -, e0, e1, e2, -⟩ := idx_facts t
  unfold iblk
  show V m c main_v0 (((cfg0.win 1).blk t).view.emb (ix3 (0 : Fin 1) d n)) = _
  rw [V_main_v0]
  have hi : ((cfg0.win 1).blk t).view.emb (ix3 (0 : Fin 1) d n) = ix3 b d n := funext fun a => Fin.ext (by
    match a with
    | ⟨0, _⟩ => show win0_1.index t (0 : Fin 3) * 1 + 1 * 0 = b.val; omega
    | ⟨1, _⟩ => show win0_1.index t (1 : Fin 3) * 3 + 1 * d.val = d.val; omega
    | ⟨2, _⟩ => show win0_1.index t (2 : Fin 3) * 8192 + 1 * n.val = n.val; omega)
  rw [hi]
  exact transpose_ix3_021_apply _ _ b d n

/-- What point `t` writes back is block `t` of `Gout` of the argument arrays. -/
theorem flushed_eq (c : Dev nD) (t : Fin cfg0.N) :
    (dats m 0 c).flushed 2 t
      = ((cfg0.win 2).blk t).view.read (Elt Ideal) (Gout (m ((c : Thread nD τ).loc main_arg0)) (m ((c : Thread nD τ).loc main_arg1))) := by
  show (cfg0.win 2).cut (grid0.coords t) ((dats m 0 c).after 2 t) = _
  rw [after0_2]
  unfold outsAt0
  obtain ⟨-, -, -, -, -, -, e0, e1, e2, ht⟩ := idx_facts t
  funext j
  refine (out_eq c (grid0.coords t) (ms0_0 t) (hs0_0 t) (ms0_1 t) (hs0_1 t) (ms0_2 t) (hs0_2 t) scM0_0 (Memref.isWhole_whole _)
    scM0_1 (Memref.isWhole_whole _) (iblk m c 0 t) (iblk m c 1 t) j).trans ?_
  have hj : (j 0).val < 1 := (j 0).isLt
  have hb : (((cfg0.win 2).blk t).view.emb j 0).val = t.val := by
    show win0_2.index t (0 : Fin 3) * 1 + 1 * (j 0).val = t.val
    omega
  show Cert.Chamfer.batch two (cloudP (iblk m c 0 t)) (cloudQ (iblk m c 1 t)) cw
    = batchOf (m ((c : Thread nD τ).loc main_arg0)) (m ((c : Thread nD τ).loc main_arg1))
        ⟨(((cfg0.win 2).blk t).view.emb j 0).val, (((cfg0.win 2).blk t).view.emb j 0).isLt⟩
  unfold batchOf
  refine congrArg₂ (fun P Q => Cert.Chamfer.batch two P Q cw) ?_ ?_
  · funext mm d
    exact iblk0_apply m c t _ hb mm d
  · funext n d
    exact iblk1_apply m c t _ hb d n

/-- An index of the result array is in point `t`'s block iff each coordinate is in the block's range. -/
theorem mem_blk (t : Fin cfg0.N) (i : S4x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v1).slice (win0_2.rect t)).set ↔ _
  rw [View.set_slice_whole, Rect.mem_set_unit]
  exact Iff.rfl

/-- The result array after the run: the four blocks tile it. -/
theorem final (c : Dev nD) :
    (dats m 0 c).arrAt 2 cfg0.N = Gout (m ((c : Thread nD τ).loc main_arg0)) (m ((c : Thread nD τ).loc main_arg1)) :=
  (dats m 0 c).arrAt_eq_of_cover 2 _ (fun t _ => flushed_eq m c t) fun i => by
    have hN : cfg0.N = 4 := N_0
    have h0 : (i 0).val < 4 := (i 0).isLt
    have h1 : (i 1).val < 1 := (i 1).isLt
    have h2 : (i 2).val < 128 := (i 2).isLt
    have ht : (i 0).val < cfg0.N := by rw [hN]; exact h0
    refine ⟨⟨(i 0).val, ht⟩, flush0_2 _, ?_⟩
    rw [mem_blk]
    obtain ⟨-, -, -, -, -, -, e0', e1, e2, -⟩ := idx_facts ⟨(i 0).val, ht⟩
    have e0 : win0_2.index ⟨(i 0).val, ht⟩ (0 : Fin 3) = (i 0).val := e0'
    intro a
    match a with
    | ⟨0, _⟩ =>
      show win0_2.index _ (0 : Fin 3) * 1 ≤ (i 0).val ∧ (i 0).val < win0_2.index _ (0 : Fin 3) * 1 + 1
      rw [e0]; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 128 ≤ (i 2).val ∧ (i 2).val < win0_2.index _ (2 : Fin 3) * 128 + 128
      rw [e2]; omega

/-- The host lines after the call: lane 0 of each row of the result array, then the mean of the four. -/
theorem tail_eq (c : Dev nD) :
    Pipeline.afterTail₀ cfgs (dats m) 0 (V0 m) [hostOps1] c main_v5
      = Cert.Chamfer.meanOf4
          (fun j => batchOf (m ((c : Thread nD τ).loc main_arg0)) (m ((c : Thread nD τ).loc main_arg1)) (j 0))
          Facts₀.reducesTo_S4_S_d0 Facts₀.h_S_ := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v1)
      = Gout (m ((c : Thread nD τ).loc main_arg0)) (m ((c : Thread nD τ).loc main_arg1)) :=
    (Pipeline.withArrays_arr spec0 launch0.win.arr_inj c _ _ 2).trans (final m c)
  rw [hw]
  show Cert.Chamfer.meanOf4 (fun j => shapeCast S4 (extractStridedSlice S4x1x1 ![0, 0, 0]
      (Gout (m ((c : Thread nD τ).loc main_arg0)) (m ((c : Thread nD τ).loc main_arg1))) Facts₀.slices_S4x1x128_S4x1x1_0_0_0)
      Facts₀.shapeCasts_S4x1x1_S4 j) Facts₀.reducesTo_S4_S_d0 Facts₀.h_S_ = _
  refine congrArg (fun v => Cert.Chamfer.meanOf4 v Facts₀.reducesTo_S4_S_d0 Facts₀.h_S_) (funext fun j => ?_)
  rw [eq_ix1 j]
  refine (shapeCast_apply _ _ (ix1 (j 0)) (ix3 (j 0) (0 : Fin 1) (0 : Fin 1)) (by
    rw [Shape.rowMajor_val_three, Shape.rowMajor_val_one]
    show ((j 0).val * 1 + 0) * 1 + 0 = (j 0).val
    omega)).trans ?_
  refine (extractStridedSlice_apply _ _ _ (ix3 (j 0) (0 : Fin 1) (0 : Fin 1)) (ix3 (j 0) (0 : Fin 1) (0 : Fin 128)) (fun ax => by
    match ax with
    | ⟨0, _⟩ => exact (Nat.zero_add _).symm
    | ⟨1, _⟩ => exact (Nat.zero_add _).symm
    | ⟨2, _⟩ => exact (Nat.zero_add _).symm)).trans ?_
  rfl

/-- The kernel's run: the result is the mean of the four batches' values, the arguments are unchanged. -/
theorem run : θ_run defs (onTc (τ := τ) (main (F := Ideal))) ⟨m, fun _ => 0, ρ⟩ (fun r => ∀ c : Dev nD,
      r.2.mem ((c.tc : Thread nD τ).loc main_v5)
        = Cert.Chamfer.meanOf4
            (fun j => batchOf (m ((c.tc : Thread nD τ).loc main_arg0)) (m ((c.tc : Thread nD τ).loc main_arg1)) (j 0))
            Facts₀.reducesTo_S4_S_d0 Facts₀.h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Chamfer.Kernel

end
-- ==== Proof.LibHostMin.lean ====
/-
  The host's minimum over one axis of a stack of matrices, read at explicit coordinates at the exact values.

  A stablehlo.reduce with a minimum body over the last axis of an [n, a, b] array collects, at (p, t), the entries
  (p, t, s) with s running over the b columns; over the middle axis it collects, at (p, t), the entries (p, s, t) with s
  running over the a rows. Each is the fold of min over those entries from the starting value's one element.
-/
import proofs.«102500_j8117488190299_2_alg».proof.Proof.LibRows

namespace Idealize.ShloMosaic.ValueIdx

open Idealize.ShloMosaic

variable {φ : FTy}

/-- The index a reduction over the middle axis of a rank-3 shape inserts: coordinate `s` on that axis. -/
theorem lift_mid_ix3 {n a b : ℕ} (h : (⟨3, ![n, a, b]⟩ : Shape).Reduces [1] ⟨2, ![n, b]⟩) (p : Fin n) (t : Fin b)
    (s : Fin a) : h.lift (ix2 p t) s = ix3 p s t := by
  funext d
  refine Fin.ext ?_
  match d with
  | ⟨0, _⟩ => rfl
  | ⟨1, _⟩ => rfl
  | ⟨2, _⟩ => rfl

/-- The host's minimum over the last axis: the fold of min over the row's entries from the starting value. -/
theorem hostLastMin_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.minimumf x init h' hu (ix2 p t)
      = (Finset.univ : Finset (Fin b)).fold min (init ix0) (fun s => x (ix3 p t s)) := by
  rw [Host.reduce_eq_fold_single FloatOps.minimumf x init h' h hu, eq_ix0 (Shape.Idx.first hu)]
  have e : (x ∘ h.lift (ix2 p t)) = fun s : Fin b => x (ix3 p t s) := funext fun s => congrArg x (lift_last_ix3 h p t s)
  rw [e]
  rfl

/-- The host's minimum over the middle axis: the fold of min over the column's entries from the starting value. -/
theorem hostMidMin_apply {n a b : ℕ} (x : FVec Ideal ⟨3, ![n, a, b]⟩ φ) (init : (⟨0, ![]⟩ : Shape).Idx → Ideal φ)
    (h' : (⟨3, ![n, a, b]⟩ : Shape).ReducesTo [1] ⟨2, ![n, b]⟩) (h : (⟨3, ![n, a, b]⟩ : Shape).Reduces [1] ⟨2, ![n, b]⟩)
    (hu : 0 < (⟨0, ![]⟩ : Shape).numel) (p : Fin n) (t : Fin b) :
    Host.reduce FloatOps.minimumf x init h' hu (ix2 p t)
      = (Finset.univ : Finset (Fin a)).fold min (init ix0) (fun s => x (ix3 p s t)) := by
  rw [Host.reduce_eq_fold_single FloatOps.minimumf x init h' h hu, eq_ix0 (Shape.Idx.first hu)]
  have e : (x ∘ h.lift (ix2 p t)) = fun s : Fin a => x (ix3 p s t) := funext fun s => congrArg x (lift_mid_ix3 h p t s)
  rw [e]
  rfl

end Idealize.ShloMosaic.ValueIdx
-- ==== Proof.ChamferConsts.lean ====
/-
  The two float constants whose values the comparison needs, as the extended reals their patterns denote: the
  reference divides each sum of 8192 least distances by 8192, the kernel multiplies it by the reciprocal, and the
  reciprocal of 8192 is a power of two, so its f32 word denotes it exactly.
-/
import Idealize.ShloMosaic.PureOps.Ideal
import Idealize.ShloMosaic.PureOps.Ideal.Laws

noncomputable section

namespace Cert.Chamfer.Consts

open Idealize.ShloMosaic

/-- The word of 8192.0 denotes the real 8192. -/
theorem ofBits_8192 : Ideal.ofBits .f32 0x46000000#32 = ((8192 : ℝ) : EReal) := by
  simp [Ideal.ofBits, Ideal.ieee, -EReal.coe_mul]; norm_num

/-- The word of 2⁻¹³ denotes the real 1/8192. -/
theorem ofBits_inv8192 : Ideal.ofBits .f32 0x39000000#32 = ((1 / 8192 : ℝ) : EReal) := by
  simp [Ideal.ofBits, Ideal.ieee, -EReal.coe_mul]; norm_num

/-- Division by the word of 8192 is multiplication by the word of its reciprocal, on every extended real. -/
theorem div_8192 (x : EReal) :
    Ideal.div x (Ideal.ofBits .f32 0x46000000#32) = x * Ideal.ofBits .f32 0x39000000#32 := by
  rw [ofBits_8192, ofBits_inv8192]
  exact Ideal.div_coe (by norm_num) x

end Cert.Chamfer.Consts

end
-- ==== Proof.ChamferRef.lean ====
/-
  The reference program read back as the specification's value.

  Per batch the reference forms the full 8192 × 8192 array of expanded squared distances (squared lengths by sums
  started at zero, the inner products by one batched product), takes its least entry per row and per column, sums each
  family from zero, divides each sum by 8192 and adds the two quotients; the result is the mean of the four batches.
-/
import proofs.«102500_j8117488190299_2_alg».proof.Proof.Gen.ReferenceIdeal.Read
import proofs.«102500_j8117488190299_2_alg».proof.Proof.LibHostMin
import proofs.«102500_j8117488190299_2_alg».proof.Proof.LibMinAxis
import proofs.«102500_j8117488190299_2_alg».proof.Proof.ChamferSpec
import proofs.«102500_j8117488190299_2_alg».proof.Proof.ChamferConsts
import proofs.«102500_j8117488190299_2_alg».proof.Proof.ChamferTail

set_option maxRecDepth 16384

noncomputable section

namespace Cert.Chamfer.Ref

open Cert.ReferenceIdeal Cert.ReferenceIdeal.Gen Cert.ReferenceIdeal.Read
open Idealize.ShloMosaic Idealize.ShloMosaic.ValueIdx Finset

variable (x0 x1 : (⟨S4x8192x3, .f32⟩ : BufTy).Contents (Elt Ideal))

/-- The factor of the inner product and the reciprocal of the number of points, as their f32 words. -/
abbrev two : EReal := Ideal.ofBits .f32 0x40000000#32
abbrev cw : EReal := Ideal.ofBits .f32 0x39000000#32

/-- Batch `b`'s two clouds. -/
abbrev cloudP (b : Fin 4) : Fin 8192 → Fin 3 → EReal := fun mm d => x0 (ix3 b mm d)
abbrev cloudQ (b : Fin 4) : Fin 8192 → Fin 3 → EReal := fun n d => x1 (ix3 b n d)

/-- The array of distances, entry by entry. -/
theorem dist_apply (b : Fin 4) (mm n : Fin 8192) :
    val_main_v12 (F := Ideal) x0 x1 (ix3 b mm n) = Cert.Chamfer.dist two (cloudP x0 b) (cloudQ x1 b) mm n := by
  have i1 : ∀ k : Fin 3, idx_main_v1 (idx_main_v5 (idx_main_v7 (ix3 b mm n))) k = ix3 b mm k := fun k =>
    funext fun a => Fin.ext (by match a with | ⟨0, _⟩ => rfl | ⟨1, _⟩ => rfl | ⟨2, _⟩ => rfl)
  have i3 : ∀ k : Fin 3, idx_main_v3 (idx_main_v6 (idx_main_v8 (ix3 b mm n))) k = ix3 b n k := fun k =>
    funext fun a => Fin.ext (by match a with | ⟨0, _⟩ => rfl | ⟨1, _⟩ => rfl | ⟨2, _⟩ => rfl)
  have il : ∀ k : Fin 3, lidx_main_v4 (ix3 b mm n) k = ix3 b mm k := fun k =>
    funext fun a => Fin.ext (by match a with | ⟨0, _⟩ => rfl | ⟨1, _⟩ => rfl | ⟨2, _⟩ => rfl)
  have ir : ∀ k : Fin 3, ridx_main_v4 (ix3 b mm n) k = ix3 b n k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply, val_main_v8_apply,
    val_main_v6_apply, val_main_v3_apply, val_main_v11_apply, val_main_v10_apply, val_main_v4_apply]
  simp only [i1, i3, il, ir, val_main_v0_apply, val_main_v2_apply, val_main_cst_apply, val_main_cst_0_apply,
    val_main_cst_1_apply, Ideal.ofBits_def, Ideal.ofBits_zero_f32, Ideal.mulf_def, Ideal.addf_def, Ideal.subf_def]
  rw [Cert.Chamfer.sq_eq_sum (fun d => x0 (ix3 b mm d)), Cert.Chamfer.sq_eq_sum (fun d => x1 (ix3 b n d))]
  rfl

/-- The least distance per point of the first cloud, and per point of the second. -/
theorem rowMin_apply (b : Fin 4) (mm : Fin 8192) :
    val_main_v13 (F := Ideal) x0 x1 (ix2 b mm) = Cert.Chamfer.rowMin two (cloudP x0 b) (cloudQ x1 b) mm := by
  unfold val_main_v13
  refine (hostLastMin_apply _ _ Facts₀.reducesTo_S4x8192x8192_S4x8192_d2 (by decide) Facts₀.h_S_ b mm).trans ?_
  rw [show val_main_cst_2 (F := Ideal) ix0 = ⊤ from Cert.LibMinAxis.ofBits_inf_f32]
  exact Cert.LibMinFold.foldMin_congr _ _ fun n => dist_apply x0 x1 b mm n

theorem colMin_apply (b : Fin 4) (n : Fin 8192) :
    val_main_v17 (F := Ideal) x0 x1 (ix2 b n) = Cert.Chamfer.colMin two (cloudP x0 b) (cloudQ x1 b) n := by
  unfold val_main_v17
  refine (hostMidMin_apply _ _ Facts₀.reducesTo_S4x8192x8192_S4x8192_d1 (by decide) Facts₀.h_S_ b n).trans ?_
  rw [show val_main_cst_5 (F := Ideal) ix0 = ⊤ from Cert.LibMinAxis.ofBits_inf_f32]
  exact Cert.LibMinFold.foldMin_congr _ _ fun mm => dist_apply x0 x1 b mm n

/-- One batch's value. -/
theorem batch_apply (b : Fin 4) :
    val_main_v21 (F := Ideal) x0 x1 (ix1 b) = Cert.Chamfer.batch two (cloudP x0 b) (cloudQ x1 b) cw := by
  have i14 : ∀ k : Fin 8192, idx_main_v14 (ix1 b) k = ix2 b k := fun k =>
    funext fun a => Fin.ext (by match a with | ⟨0, _⟩ => rfl | ⟨1, _⟩ => rfl)
  have i18 : ∀ k : Fin 8192, idx_main_v18 (ix1 b) k = ix2 b k := fun k =>
    funext fun a => Fin.ext (by match a with | ⟨0, _⟩ => rfl | ⟨1, _⟩ => rfl)
  rw [val_main_v21_apply, val_main_v16_apply, val_main_v20_apply, val_main_v14_apply, val_main_v18_apply,
    val_main_v15_apply, val_main_v19_apply]
  simp only [i14, i18, val_main_cst_3_apply, val_main_cst_4_apply, val_main_cst_6_apply, val_main_cst_7_apply,
    Ideal.ofBits_def, Ideal.ofBits_zero_f32, Ideal.addf_def, Ideal.hostDivf_def, zero_add,
    Cert.Chamfer.Consts.div_8192, rowMin_apply, colMin_apply]
  rfl

/-- The reference's result is the mean of the four batches' values. -/
theorem result_eq :
    val_main_v23 (F := Ideal) x0 x1
      = Cert.Chamfer.meanOf4 (fun j => Cert.Chamfer.batch two (cloudP x0 (j 0)) (cloudQ x1 (j 0)) cw)
          Facts₀.reducesTo_S4_S_d0 Facts₀.h_S_ := by
  have e : val_main_v21 (F := Ideal) x0 x1 = fun j => Cert.Chamfer.batch two (cloudP x0 (j 0)) (cloudQ x1 (j 0)) cw :=
    funext fun j => by
      rw [eq_ix1 j]
      exact batch_apply x0 x1 (j 0)
  show Cert.Chamfer.meanOf4 (val_main_v21 (F := Ideal) x0 x1) Facts₀.reducesTo_S4_S_d0 Facts₀.h_S_ = _
  rw [e]

end Cert.Chamfer.Ref

end
-- ==== Proof.lean ====
/-
  The Chamfer distance of two batches of point clouds: a tiled kernel against the plain formula.

  For each of four batches, two clouds P and Q of 8192 points in three dimensions are given. With the squared distance in
  the expanded form d(m, n) = |P m|² + |Q n|² − 2·⟨P m, Q n⟩, the value of a batch is the mean over m of min_n d(m, n) plus
  the mean over n of min_m d(m, n), and the result is the mean of the four batch values.

  The reference forms the whole 8192 × 8192 array d per batch and reduces it along each axis. The kernel never forms it:
  per batch it walks over P in 32 stretches of 256 points and, within a stretch, over Q in 4 stretches of 2048 points,
  building one 256 × 2048 block of d at a time (the inner products by a matrix product into a zero accumulator); it keeps a
  running minimum per point of Q across the stretches of P, a running minimum per point of P across the stretches of Q,
  and a running sum of the latter; at the end it scales both sums by the reciprocal of 8192 and adds them.

  On the extended reals the two agree for every input: a value lies below a minimum exactly when it lies below every
  entry, so minima may be taken stretch by stretch in any grouping, from the top element; sums of extended reals may be
  regrouped, and a sum started at zero is the sum; |x|² written as (a² + b²) + c² is the sum of the three squares started
  at zero; and dividing by 8192 is multiplying by 2⁻¹³, whose f32 word denotes it exactly. None of these needs a finite
  entry, so the precondition is not opened.

  The three programs' runs end with their argument arrays unchanged; the idealized kernel is the kernel's own text read at
  the exact values (the ideal pass rewrote nothing).
-/
import proofs.«102500_j8117488190299_2_alg».proof.Defs
import proofs.«102500_j8117488190299_2_alg».proof.Proof.Gen.Kernel
import proofs.«102500_j8117488190299_2_alg».proof.Proof.Gen.Kernel.Frame
import proofs.«102500_j8117488190299_2_alg».proof.Proof.Gen.KernelIdeal
import proofs.«102500_j8117488190299_2_alg».proof.Proof.Gen.KernelIdeal.Frame
import proofs.«102500_j8117488190299_2_alg».proof.Proof.Gen.ReferenceIdeal
import proofs.«102500_j8117488190299_2_alg».proof.Proof.Gen.ReferenceIdeal.Run
import proofs.«102500_j8117488190299_2_alg».proof.Proof.Gen.ReferenceIdeal.Read
import proofs.«102500_j8117488190299_2_alg».proof.Proof.Gen.Pre_finite_inputs
import proofs.«102500_j8117488190299_2_alg».proof.Proof.ChamferKernel
import proofs.«102500_j8117488190299_2_alg».proof.Proof.ChamferRef
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two arrays, both programs end at the mean of the four batches' values. -/
theorem algebraic : Cert.algebraic_KernelIdeal_ReferenceIdeal := by
  intro m ρ m' ρ' _ hagree
  refine ⟨_, Cert.Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Chamfer.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
